-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x4096x512 : Shape := ⟨3, ![32, 4096, 512]⟩
abbrev S32x4096x1 : Shape := ⟨3, ![32, 4096, 1]⟩
abbrev S1x512 : Shape := ⟨2, ![1, 512]⟩
abbrev S1x1 : Shape := ⟨2, ![1, 1]⟩
abbrev S512 : Shape := ⟨1, ![512]⟩
abbrev S_ : Shape := ⟨0, ![]⟩
abbrev S32x1 : Shape := ⟨2, ![32, 1]⟩
abbrev S1 : Shape := ⟨1, ![1]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x4096x512 : S_.BroadcastsInDim S32x4096x512 (![] : Fin 0 → Fin S32x4096x512.rank)
  reducesTo_S32x4096x512_S_d0_1_2 : S32x4096x512.ReducesTo [0, 1, 2] S_
  bcast_S_S1x512 : S_.BroadcastsInDim S1x512 (![] : Fin 0 → Fin S1x512.rank)
  reducesTo_S1x512_S_d0_1 : S1x512.ReducesTo [0, 1] S_
  bcast_S_S1x1 : S_.BroadcastsInDim S1x1 (![] : Fin 0 → Fin S1x1.rank)
  reducesTo_S1x1_S_d0_1 : S1x1.ReducesTo [0, 1] S_
  bcast_S_S512 : S_.BroadcastsInDim S512 (![] : Fin 0 → Fin S512.rank)
  reducesTo_S512_S_d0 : S512.ReducesTo [0] S_
  reducesTo_S32x4096x1_S32x1_d1 : S32x4096x1.ReducesTo [1] S32x1
  reducesTo_S32x1_S_d0_1 : S32x1.ReducesTo [0, 1] S_
  reducesTo_S1x512_S1_d1 : S1x512.ReducesTo [1] S1
  bcast_S1_S1x1_0 : S1.BroadcastsInDim S1x1 (![0] : Fin 1 → Fin S1x1.rank)

variable [Facts]

def fn_part2 {F : FTy → Type} [FloatOps F] (main_v26 : IVec S_ 1) (main_v32 : IVec S1x1 1) (main_c_12 : IVec S_ 1) : IVec S_ 1 :=
  let main_v33 : IVec S_ 1 := (fun x v => Host.reduce IntOp.andi x v reducesTo_S1x1_S_d0_1 h_S_) main_v32 main_c_12
  let main_v34 : IVec S_ 1 := andi main_v26 main_v33
  main_v34

def fn_part1 {F : FTy → Type} [FloatOps F] (main_arg2 : IVec S32x4096x1 1) (main_arg3 : FVec F S1x512 .f32) (main_arg5 : FVec F S512 .f32) (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 1 := constantI S_ 1 0#1
  let main_v24 : IVec S32x1 1 := (fun x v => Host.reduce IntOp.ori x v reducesTo_S32x4096x1_S32x1_d1 h_S_) main_arg2 main_c_8
  let main_c_9 : IVec S_ 1 := constantI S_ 1 1#1
  let main_v25 : IVec S_ 1 := (fun x v => Host.reduce IntOp.andi x v reducesTo_S32x1_S_d0_1 h_S_) main_v24 main_c_9
  let main_v26 : IVec S_ 1 := andi main_v23 main_v25
  let main_v27 : FVec F S1x512 .f32 := mulf main_arg3 main_arg3
  let main_cst_10 : FVec F S_ .f32 := constant S_ .f32 0x00000000#32
  let main_v28 : FVec F S1 .f32 := (fun x v => Host.reduceAdd x v reducesTo_S1x512_S1_d1 h_S_) main_v27 main_cst_10
  let main_v29 : FVec F S1x1 .f32 := broadcastInDim S1x1 ![0] bcast_S1_S1x1_0 main_v28
  let main_v30 : FVec F S1x1 .f32 := Host.sqrt main_v29
  let main_cst_11 : FVec F S_ .f32 := constant S_ .f32 0x00000000#32
  let main_v31 : FVec F S1x1 .f32 := broadcastInDim S1x1 ![] bcast_S_S1x1 main_cst_11
  let main_v32 : IVec S1x1 1 := cmpf .ogt main_v30 main_v31
  let main_c_12 : IVec S_ 1 := constantI S_ 1 1#1
  fn_part2 (F := F) main_v26 main_v32 main_c_12

def fn {F : FTy → Type} [FloatOps F] (main_arg0 : FVec F S32x512 .f32) (main_arg1 : FVec F S32x4096x512 .f32) (main_arg2 : IVec S32x4096x1 1) (main_arg3 : FVec F S1x512 .f32) (main_arg4 : FVec F S1x1 .f32) (main_arg5 : FVec F S512 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x4096x512 .f32 := Host.absf main_arg1
  let main_cst_0 : FVec F S_ .f32 := constant S_ .f32 0x7F800000#32
  let main_v5 : FVec F S32x4096x512 .f32 := broadcastInDim S32x4096x512 ![] bcast_S_S32x4096x512 main_cst_0
  let main_v6 : IVec S32x4096x512 1 := cmpf .olt main_v4 main_v5
  let main_c_1 : IVec S_ 1 := constantI S_ 1 1#1
  let main_v7 : IVec S_ 1 := (fun x v => Host.reduce IntOp.andi x v reducesTo_S32x4096x512_S_d0_1_2 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x1 .f32 := Host.absf main_arg4
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_arg2 main_arg3 main_arg5 main_v13 main_v16
-- ==== Kernel.lean ====
abbrev S32x512 : Shape := ⟨2, ![32, 512]⟩
abbrev S32x4096x512 : Shape := ⟨3, ![32, 4096, 512]⟩
abbrev S32x4096x1 : Shape := ⟨3, ![32, 4096, 1]⟩
abbrev S1x512 : Shape := ⟨2, ![1, 512]⟩
abbrev S1x1 : Shape := ⟨2, ![1, 1]⟩
abbrev S512 : Shape := ⟨1, ![512]⟩
abbrev S_ : Shape := ⟨0, ![]⟩
abbrev S1 : Shape := ⟨1, ![1]⟩
abbrev S32x1x512 : Shape := ⟨3, ![32, 1, 512]⟩
abbrev S8x1x512 : Shape := ⟨3, ![8, 1, 512]⟩
abbrev S8x256x512 : Shape := ⟨3, ![8, 256, 512]⟩
abbrev S8x256x1 : Shape := ⟨3, ![8, 256, 1]⟩
abbrev S8x1x1 : Shape := ⟨3, ![8, 1, 1]⟩
abbrev S1x1x512 : Shape := ⟨3, ![1, 1, 512]⟩
abbrev S8x256 : Shape := ⟨2, ![8, 256]⟩
abbrev S8x1 : Shape := ⟨2, ![8, 1]⟩
abbrev S8x512 : Shape := ⟨2, ![8, 512]⟩
abbrev S32x1 : Shape := ⟨2, ![32, 1]⟩
abbrev S32x1x1 : Shape := ⟨3, ![32, 1, 1]⟩

abbrev nBuf : Space → Nat
  | .hbm => 37
  | .vmem => 14
  | .smem => 0
  | _ => 0

abbrev bufTy : (tb : Table) → Fin (tcTables nBuf tb) → BufTy
  | .hbm, ⟨0, _⟩ => ⟨S32x512, .f32⟩
  | .hbm, ⟨1, _⟩ => ⟨S32x4096x512, .f32⟩
  | .hbm, ⟨2, _⟩ => ⟨S32x4096x1, .i1⟩
  | .hbm, ⟨3, _⟩ => ⟨S1x512, .f32⟩
  | .hbm, ⟨4, _⟩ => ⟨S1x1, .f32⟩
  | .hbm, ⟨5, _⟩ => ⟨S512, .f32⟩
  | .hbm, ⟨6, _⟩ => ⟨S1x512, .f32⟩
  | .hbm, ⟨7, _⟩ => ⟨S_, .f32⟩
  | .hbm, ⟨8, _⟩ => ⟨S1, .f32⟩
  | .hbm, ⟨9, _⟩ => ⟨S1x1, .f32⟩
  | .hbm, ⟨10, _⟩ => ⟨S1x1, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S32x512, .f32⟩
  | .hbm, ⟨17, _⟩ => ⟨S32x512, .f32⟩
  | .hbm, ⟨18, _⟩ => ⟨S32x1x512, .f32⟩
  | .hbm, ⟨19, _⟩ => ⟨S32x4096x1, .i32⟩
  | .hbm, ⟨20, _⟩ => ⟨S32x1x512, .f32⟩
  | .hbm, ⟨21, _⟩ => ⟨S32x4096x1, .f32⟩
  | .hbm, ⟨22, _⟩ => ⟨S32x512, .f32⟩
  | .hbm, ⟨23, _⟩ => ⟨S_, .f32⟩
  | .hbm, ⟨24, _⟩ => ⟨S32x1, .f32⟩
  | .hbm, ⟨25, _⟩ => ⟨S_, .f32⟩
  | .hbm, ⟨26, _⟩ => ⟨S32x1, .f32⟩
  | .hbm, ⟨27, _⟩ => ⟨S32x1, .f32⟩
  | .hbm, ⟨28, _⟩ => ⟨S32x1x1, .f32⟩
  | .hbm, ⟨29, _⟩ => ⟨S32x4096x1, .f32⟩
  | .hbm, ⟨30, _⟩ => ⟨S32x4096x1, .f32⟩
  | .hbm, ⟨31, _⟩ => ⟨S32x4096x1, .f32⟩
  | .hbm, ⟨32, _⟩ => ⟨S_, .f32⟩
  | .hbm, ⟨33, _⟩ => ⟨S32x1, .f32⟩
  | .hbm, ⟨34, _⟩ => ⟨S32x1x1, .f32⟩
  | .hbm, ⟨35, _⟩ => ⟨S32x4096x1, .f32⟩
  | .hbm, ⟨36, _⟩ => ⟨S32x4096x1, .f32⟩
  | .local _ .vmem, ⟨0, _⟩ => ⟨S8x1x512, .f32⟩
  | .local _ .vmem, ⟨1, _⟩ => ⟨S8x1x512, .f32⟩
  | .local _ .vmem, ⟨2, _⟩ => ⟨S1x512, .f32⟩
  | .local _ .vmem, ⟨3, _⟩ => ⟨S8x256x512, .f32⟩
  | .local _ .vmem, ⟨4, _⟩ => ⟨S8x256x512, .f32⟩
  | .local _ .vmem, ⟨5, _⟩ => ⟨S8x256x1, .i32⟩
  | .local _ .vmem, ⟨6, _⟩ => ⟨S8x256x1, .i32⟩
  | .local _ .vmem, ⟨7, _⟩ => ⟨S8x1x512, .f32⟩
  | .local _ .vmem, ⟨8, _⟩ => ⟨S8x1x512, .f32⟩
  | .local _ .vmem, ⟨9, _⟩ => ⟨S8x256x1, .f32⟩
  | .local _ .vmem, ⟨10, _⟩ => ⟨S8x256x1, .f32⟩
  | .local _ .vmem, ⟨11, _⟩ => ⟨S8x1x512, .f32⟩
  | .local _ .vmem, ⟨12, _⟩ => ⟨S8x1x1, .f32⟩
  | .local _ .vmem, ⟨13, _⟩ => ⟨S8x1x1, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_37 : BitVec 32 := 0#32
  let v56 : BitVec 1 := Scalar.cmpi .ne v55 c0_i32_37
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S1x512_S1_d1 : S1x512.ReducesTo [1] S1
  h_S_ : 0 < S_.numel
  bcast_S1_S1x1_0 : S1.BroadcastsInDim S1x1 (![0] : Fin 1 → Fin S1x1.rank)
  bcast_S1x1_S1x512_0_1 : S1x1.BroadcastsInDim S1x512 (![0, 1] : Fin 2 → Fin S1x512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x1x512_0_2 : S32x512.BroadcastsInDim S32x1x512 (![0, 2] : Fin 2 → Fin S32x1x512.rank)
  natLt_1_32 : 1 < 32
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x256x512_S8x256x512_0_0_0 : ∀ a, (![0, 0, 0] : Fin 3 → Nat) a + S8x256x512.size a ≤ S8x256x512.size a
  h_S8x256x512 : 0 < S8x256x512.numel
  broadcasts_S8x1x512_S8x256x512 : S8x1x512.Broadcasts S8x256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S8x256x512 : S1x1x512.Broadcasts S8x256x512
  reduces_S8x256x512_S8x256 : S8x256x512.Reduces [2] S8x256
  shapeCasts_S8x256_S8x256x1 : S8x256.ShapeCasts S8x256x1
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  reduces_S8x256x1_S8x1 : S8x256x1.Reduces [1] S8x1
  shapeCasts_S8x1_S8x1x1 : S8x1.ShapeCasts S8x1x1
  broadcasts_S8x1x1_S8x256x1 : S8x1x1.Broadcasts S8x256x1
  broadcasts_S8x1x1_S8x1x512 : S8x1x1.Broadcasts S8x1x512
  broadcasts_S8x256x1_S8x256x512 : S8x256x1.Broadcasts S8x256x512
  reduces_S8x256x512_S8x512 : S8x256x512.Reduces [1] S8x512
  shapeCasts_S8x512_S8x1x512 : S8x512.ShapeCasts S8x1x512
  shapeCasts_S32x1x512_S32x512 : S32x1x512.ShapeCasts S32x512
  reducesTo_S32x4096x1_S32x1_d1 : S32x4096x1.ReducesTo [1] S32x1
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x512.size a ≤ S32x1x512.size a
  hwx0_0 : ∀ i : grid0.Coords, EltTy.bits .f32 = 32 ∨ (Rect.block (s := S32x1x512) S8x1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S32x4096x512.size a
  hwx0_2 : ∀ i : grid0.Coords, EltTy.bits .f32 = 32 ∨ (Rect.block (s := S32x4096x512) S8x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1.size a ≤ S32x4096x1.size a
  hwx0_3 : ∀ i : grid0.Coords, EltTy.bits .i32 = 32 ∨ (Rect.block (s := S32x4096x1) S8x256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x512.size a ≤ S32x1x512.size a
  hwx0_4 : ∀ i : grid0.Coords, EltTy.bits .f32 = 32 ∨ (Rect.block (s := S32x1x512) S8x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x1.size a ≤ S32x4096x1.size a
  hwx0_5 : ∀ i : grid0.Coords, EltTy.bits .f32 = 32 ∨ (Rect.block (s := S32x4096x1) S8x256x1.size (cc0_transform_5 i) (hinb0_5 i)).WholeWords (EltTy.packing .f32)

variable [Facts₀]

abbrev win0_0 : Pipeline.Window sig grid0 :=
  Pipeline.Window.ofSpec (Memref.whole main_v8) S8x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S8x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S8x256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S32x512 : Shape := ⟨2, ![32, 512]⟩
abbrev S32x4096x512 : Shape := ⟨3, ![32, 4096, 512]⟩
abbrev S32x4096x1 : Shape := ⟨3, ![32, 4096, 1]⟩
abbrev S1x512 : Shape := ⟨2, ![1, 512]⟩
abbrev S1x1 : Shape := ⟨2, ![1, 1]⟩
abbrev S512 : Shape := ⟨1, ![512]⟩
abbrev S_ : Shape := ⟨0, ![]⟩
abbrev S1 : Shape := ⟨1, ![1]⟩
abbrev S32x1x512 : Shape := ⟨3, ![32, 1, 512]⟩
abbrev S1x1x512 : Shape := ⟨3, ![1, 1, 512]⟩
abbrev S32x1 : Shape := ⟨2, ![32, 1]⟩
abbrev S32x1x1 : Shape := ⟨3, ![32, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x4096x512, .f32⟩
  | .hbm, ⟨2, _⟩ => ⟨S32x4096x1, .i1⟩
  | .hbm, ⟨3, _⟩ => ⟨S1x512, .f32⟩
  | .hbm, ⟨4, _⟩ => ⟨S1x1, .f32⟩
  | .hbm, ⟨5, _⟩ => ⟨S512, .f32⟩
  | .hbm, ⟨6, _⟩ => ⟨S1x512, .f32⟩
  | .hbm, ⟨7, _⟩ => ⟨S_, .f32⟩
  | .hbm, ⟨8, _⟩ => ⟨S1, .f32⟩
  | .hbm, ⟨9, _⟩ => ⟨S1x1, .f32⟩
  | .hbm, ⟨10, _⟩ => ⟨S1x1, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S32x1x512, .f32⟩
  | .hbm, ⟨16, _⟩ => ⟨S32x4096x512, .f32⟩
  | .hbm, ⟨17, _⟩ => ⟨S32x4096x512, .f32⟩
  | .hbm, ⟨18, _⟩ => ⟨S1x1x512, .f32⟩
  | .hbm, ⟨19, _⟩ => ⟨S32x4096x512, .f32⟩
  | .hbm, ⟨20, _⟩ => ⟨S32x4096x512, .f32⟩
  | .hbm, ⟨21, _⟩ => ⟨S32x4096x512, .f32⟩
  | .hbm, ⟨22, _⟩ => ⟨S32x4096x1, .f32⟩
  | .hbm, ⟨23, _⟩ => ⟨S_, .f32⟩
  | .hbm, ⟨24, _⟩ => ⟨S32x4096x1, .f32⟩
  | .hbm, ⟨25, _⟩ => ⟨S32x4096x1, .f32⟩
  | .hbm, ⟨26, _⟩ => ⟨S_, .f32⟩
  | .hbm, ⟨27, _⟩ => ⟨S32x1, .f32⟩
  | .hbm, ⟨28, _⟩ => ⟨S_, .f32⟩
  | .hbm, ⟨29, _⟩ => ⟨S32x1, .f32⟩
  | .hbm, ⟨30, _⟩ => ⟨S32x1, .f32⟩
  | .hbm, ⟨31, _⟩ => ⟨S32x1x1, .f32⟩
  | .hbm, ⟨32, _⟩ => ⟨S32x4096x1, .f32⟩
  | .hbm, ⟨33, _⟩ => ⟨S32x4096x1, .f32⟩
  | .hbm, ⟨34, _⟩ => ⟨S32x4096x1, .f32⟩
  | .hbm, ⟨35, _⟩ => ⟨S_, .f32⟩
  | .hbm, ⟨36, _⟩ => ⟨S32x1, .f32⟩
  | .hbm, ⟨37, _⟩ => ⟨S32x1x1, .f32⟩
  | .hbm, ⟨38, _⟩ => ⟨S32x4096x1, .f32⟩
  | .hbm, ⟨39, _⟩ => ⟨S32x4096x1, .f32⟩
  | .hbm, ⟨40, _⟩ => ⟨S32x4096x512, .f32⟩
  | .hbm, ⟨41, _⟩ => ⟨S32x4096x512, .f32⟩
  | .hbm, ⟨42, _⟩ => ⟨S_, .f32⟩
  | .hbm, ⟨43, _⟩ => ⟨S32x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call1_v0 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S1x512_S1_d1 : S1x512.ReducesTo [1] S1
  h_S_ : 0 < S_.numel
  bcast_S1_S1x1_0 : S1.BroadcastsInDim S1x1 (![0] : Fin 1 → Fin S1x1.rank)
  bcast_S1x1_S1x512_0_1 : S1x1.BroadcastsInDim S1x512 (![0, 1] : Fin 2 → Fin S1x512.rank)
  bcast_S32x512_S32x1x512_0_2 : S32x512.BroadcastsInDim S32x1x512 (![0, 2] : Fin 2 → Fin S32x1x512.rank)
  bcast_S32x1x512_S32x4096x512_0_1_2 : S32x1x512.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x1 : S_.BroadcastsInDim S32x4096x1 (![] : Fin 0 → Fin S32x4096x1.rank)
  reducesTo_S32x4096x1_S32x1_d1 : S32x4096x1.ReducesTo [1] S32x1
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  bcast_S32x4096x1_S32x4096x512_0_1_2 : S32x4096x1.BroadcastsInDim S32x4096x512 (![0, 1, 2] : Fin 3 → Fin S32x4096x512.rank)
  reducesTo_S32x4096x512_S32x512_d1 : S32x4096x512.ReducesTo [1] S32x512
  dot_S32x4096x512_S1x512_S32x4096x1_2_1_01_0_n_n_wf : DotDims.WF S32x4096x512 S1x512 S32x4096x1 [2] [1] [0, 1] [0] [] []

variable [Facts₀]

def dot_S32x4096x512_S1x512_S32x4096x1_2_1_01_0_n_n : DotDims S32x4096x512 S1x512 S32x4096x1 where
  lhsContracting := [2]
  rhsContracting := [1]
  lhsNonContracting := [0, 1]
  rhsNonContracting := [0]
  lhsBatch := []
  rhsBatch := []
  wf := dot_S32x4096x512_S1x512_S32x4096x1_2_1_01_0_n_n_wf

class Facts : Prop extends Facts₀ where

variable [Facts]
-- ==== Proof.KernelPieces.lean ====
import proofs.«144867_j29738353557990_1_alg».proof.Proof.Gen.KernelIdeal.Frame
import Idealize.ShloMosaic.Lib.Pipeline.Value

set_option maxRecDepth 16384

noncomputable section

/-
  What each control case of the body leaves in the scores block, in the three carried values and (at a last tile) in the result
  block, as the body's arithmetic applied to the point's input blocks and to the carried values the point before left. At a first
  tile the carried values are read back through the stores that reset them: −∞ for the maximum, 0 for denominator and numerator.
-/
namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The zero offsets, as constant functions. -/
theorem hz3 : (![0, 0, 0] : Fin 3 → Nat) = fun _ => 0 := by funext a; fin_cases a <;> rfl
theorem hz2 : (![0, 0] : Fin 2 → Nat) = fun _ => 0 := by funext a; fin_cases a <;> rfl

theorem scores_A (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : cond0_0 i) (hc1 : ¬cond0_1 i)
    (x0 : Vec F S8x1x512 .f32) (x1 : Vec F S1x512 .f32) (x2 : Vec F S8x256x512 .f32) (x3 : Vec F S8x256x1 .i32) :
    out0_A_5 (F := F) c i arg2 harg2 arg3 harg3 arg4 harg4 arg5 harg5 arg6 harg6 arg7 harg7 arg8 harg8 arg9 harg9 arg10 harg10 hc0 hc1 x0 x1 x2 x3
      = k0_pay8 x2 x0 x1 x3 := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem num_A (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : cond0_0 i) (hc1 : ¬cond0_1 i)
    (x0 : Vec F S8x1x512 .f32) (x1 : Vec F S1x512 .f32) (x2 : Vec F S8x256x512 .f32) (x3 : Vec F S8x256x1 .i32) :
    sout0_A_0 (F := F) c i arg2 harg2 arg3 harg3 arg4 harg4 arg5 harg5 arg6 harg6 arg7 harg7 arg8 harg8 arg9 harg9 arg10 harg10 hc0 hc1 x0 x1 x2 x3
      = k0_pay2 x2 (k0_pay10 x2 x0 x1 x3 k0_pay6) (k0_pay11 x2 x0 x1 x3 k0_pay6) k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem max_A (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : cond0_0 i) (hc1 : ¬cond0_1 i)
    (x0 : Vec F S8x1x512 .f32) (x1 : Vec F S1x512 .f32) (x2 : Vec F S8x256x512 .f32) (x3 : Vec F S8x256x1 .i32) :
    sout0_A_1 (F := F) c i arg2 harg2 arg3 harg3 arg4 harg4 arg5 harg5 arg6 harg6 arg7 harg7 arg8 harg8 arg9 harg9 arg10 harg10 hc0 hc1 x0 x1 x2 x3
      = k0_pay3 (k0_pay9 x2 x0 x1 x3 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem den_A (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : cond0_0 i) (hc1 : ¬cond0_1 i)
    (x0 : Vec F S8x1x512 .f32) (x1 : Vec F S1x512 .f32) (x2 : Vec F S8x256x512 .f32) (x3 : Vec F S8x256x1 .i32) :
    sout0_A_2 (F := F) c i arg2 harg2 arg3 harg3 arg4 harg4 arg5 harg5 arg6 harg6 arg7 harg7 arg8 harg8 arg9 harg9 arg10 harg10 hc0 hc1 x0 x1 x2 x3
      = k0_pay1 (k0_pay10 x2 x0 x1 x3 k0_pay6) (k0_pay11 x2 x0 x1 x3 k0_pay6) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem scores_B (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : ¬cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    out0_B_5 (F := F) c i arg2 harg2 arg3 harg3 arg4 harg4 arg5 harg5 arg6 harg6 arg7 harg7 arg8 harg8 arg9 harg9 arg10 harg10 hc0 hc1 x0 x1 x2 x3 xs0 xs1 xs2
      = k0_pay8 x2 x0 x1 x3 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem num_B (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : ¬cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_B_0 (F := F) c i arg2 harg2 arg3 harg3 arg4 harg4 arg5 harg5 arg6 harg6 arg7 harg7 arg8 harg8 arg9 harg9 arg10 harg10 hc0 hc1 x0 x1 x2 x3 xs0 xs1 xs2
      = k0_pay2 x2 (k0_pay10 x2 x0 x1 x3 xs1) (k0_pay11 x2 x0 x1 x3 xs1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem max_B (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : ¬cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_B_1 (F := F) c i arg2 harg2 arg3 harg3 arg4 harg4 arg5 harg5 arg6 harg6 arg7 harg7 arg8 harg8 arg9 harg9 arg10 harg10 hc0 hc1 x0 x1 x2 x3 xs0 xs1 xs2
      = k0_pay3 (k0_pay9 x2 x0 x1 x3 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem den_B (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : ¬cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_B_2 (F := F) c i arg2 harg2 arg3 harg3 arg4 harg4 arg5 harg5 arg6 harg6 arg7 harg7 arg8 harg8 arg9 harg9 arg10 harg10 hc0 hc1 x0 x1 x2 x3 xs0 xs1 xs2
      = k0_pay1 (k0_pay10 x2 x0 x1 x3 xs1) (k0_pay11 x2 x0 x1 x3 xs1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem scores_C (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    out0_C_5 (F := F) c i arg2 harg2 arg3 harg3 arg4 harg4 arg5 harg5 arg6 harg6 arg7 harg7 arg8 harg8 arg9 harg9 arg10 harg10 hc0 hc1 x0 x1 x2 x3 xs0 xs1 xs2
      = k0_pay8 x2 x0 x1 x3 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem num_C (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_C_0 (F := F) c i arg2 harg2 arg3 harg3 arg4 harg4 arg5 harg5 arg6 harg6 arg7 harg7 arg8 harg8 arg9 harg9 arg10 harg10 hc0 hc1 x0 x1 x2 x3 xs0 xs1 xs2
      = k0_pay2 x2 (k0_pay10 x2 x0 x1 x3 xs1) (k0_pay11 x2 x0 x1 x3 xs1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem max_C (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_C_1 (F := F) c i arg2 harg2 arg3 harg3 arg4 harg4 arg5 harg5 arg6 harg6 arg7 harg7 arg8 harg8 arg9 harg9 arg10 harg10 hc0 hc1 x0 x1 x2 x3 xs0 xs1 xs2
      = k0_pay3 (k0_pay9 x2 x0 x1 x3 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem den_C (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    sout0_C_2 (F := F) c i arg2 harg2 arg3 harg3 arg4 harg4 arg5 harg5 arg6 harg6 arg7 harg7 arg8 harg8 arg9 harg9 arg10 harg10 hc0 hc1 x0 x1 x2 x3 xs0 xs1 xs2
      = k0_pay1 (k0_pay10 x2 x0 x1 x3 xs1) (k0_pay11 x2 x0 x1 x3 xs1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

theorem result_C (c : Dev nD) (i : grid0.Coords) (arg2 : Memref sig .tc .vmem S8x1x512 .f32) (harg2 : arg2.IsWhole) (arg3 : Memref sig .tc .vmem S1x512 .f32) (harg3 : arg3.IsWhole) (arg4 : Memref sig .tc .vmem S8x256x512 .f32) (harg4 : arg4.IsWhole) (arg5 : Memref sig .tc .vmem S8x256x1 .i32) (harg5 : arg5.IsWhole) (arg6 : Memref sig .tc .vmem S8x1x512 .f32) (harg6 : arg6.IsWhole) (arg7 : Memref sig .tc .vmem S8x256x1 .f32) (harg7 : arg7.IsWhole) (arg8 : Memref sig .tc .vmem S8x1x512 .f32) (harg8 : arg8.IsWhole) (arg9 : Memref sig .tc .vmem S8x1x1 .f32) (harg9 : arg9.IsWhole) (arg10 : Memref sig .tc .vmem S8x1x1 .f32) (harg10 : arg10.IsWhole) (hc0 : ¬cond0_0 i) (hc1 : cond0_1 i)
    (x0 : Vec F S8x1x512 .f32) (x1 : Vec F S1x512 .f32) (x2 : Vec F S8x256x512 .f32) (x3 : Vec F S8x256x1 .i32) (xs0 : Vec F S8x1x512 .f32) (xs1 : Vec F S8x1x1 .f32) (xs2 : Vec F S8x1x1 .f32) :
    out0_C_4 (F := F) c i arg2 harg2 arg3 harg3 arg4 harg4 arg5 harg5 arg6 harg6 arg7 harg7 arg8 harg8 arg9 harg9 arg10 harg10 hc0 hc1 x0 x1 x2 x3 xs0 xs1 xs2
      = k0_pay4 (k0_pay2 x2 (k0_pay10 x2 x0 x1 x3 xs1) (k0_pay11 x2 x0 x1 x3 xs1) xs0) (k0_pay1 (k0_pay10 x2 x0 x1 x3 xs1) (k0_pay11 x2 x0 x1 x3 xs1) xs2) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_cons_unit_zero hz3]
  first
    | rfl
    | (simp only [View.readCov_unit_zero (S := S8x1x1) _ hz3, View.readCov_unit_zero (S := S8x1x512) _ hz3, View.readAt_eq_ld,
    harg2.read_unread, harg3.read_unread, harg4.read_unread, harg5.read_unread, harg8.read_unread, harg9.read_unread, harg10.read_unread,
    View.ld_unit_zero (S := S8x256x512) hz3, View.ld_unit_zero (S := S8x1x512) hz3, View.ld_unit_zero (S := S8x256x1) hz3,
    View.ld_unit_zero (S := S8x1x1) hz3, View.ld_unit_zero (S := S1x512) hz2])

end Cert.KernelIdeal.Pieces

end
-- ==== Proof.KernelPoints.lean ====
/-
  One grid point unfolded. At a first tile (t % 16 = 0) the carried values are reset and then advanced; at a middle tile they are
  advanced from what the point before left; at a last tile (t % 16 = 15) they are advanced and the result block is their quotient.
  Each component is the body's arithmetic applied to the point's input blocks and to the carried values of the point before.
-/
import proofs.«144867_j29738353557990_1_alg».proof.Proof.KernelPieces

set_option maxRecDepth 16384

noncomputable section

namespace Cert.KernelIdeal.Points

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD)

/-- A first tile. -/
theorem first (t : Fin cfg0.N) (h0 : t.val % 16 = 0) (h1 : ¬t.val % 16 = 15) :
    (outsAt0 m c t.val t.isLt).2.1 = k0_pay8 (F := Ideal) (iblk m c 2 t) (iblk m c 0 t) (iblk m c 1 t) (iblk m c 3 t)
    ∧ (outsAt0 m c t.val t.isLt).2.2.1 = k0_pay2 (F := Ideal) (iblk m c 2 t) (k0_pay10 (F := Ideal) (iblk m c 2 t) (iblk m c 0 t) (iblk m c 1 t) (iblk m c 3 t) (k0_pay6 (F := Ideal))) (k0_pay11 (F := Ideal) (iblk m c 2 t) (iblk m c 0 t) (iblk m c 1 t) (iblk m c 3 t) (k0_pay6 (F := Ideal))) (k0_pay5 (F := Ideal))
    ∧ (outsAt0 m c t.val t.isLt).2.2.2.1 = k0_pay3 (F := Ideal) (k0_pay9 (F := Ideal) (iblk m c 2 t) (iblk m c 0 t) (iblk m c 1 t) (iblk m c 3 t) (k0_pay6 (F := Ideal)))
    ∧ (outsAt0 m c t.val t.isLt).2.2.2.2 = k0_pay1 (F := Ideal) (k0_pay10 (F := Ideal) (iblk m c 2 t) (iblk m c 0 t) (iblk m c 1 t) (iblk m c 3 t) (k0_pay6 (F := Ideal))) (k0_pay11 (F := Ideal) (iblk m c 2 t) (iblk m c 0 t) (iblk m c 1 t) (iblk m c 3 t) (k0_pay6 (F := Ideal))) (k0_pay7 (F := Ideal)) := by
  rw [outsAt0_A m c t h0 h1]
  dsimp only
  refine ⟨?_, ?_, ?_, ?_⟩
  · rw [Pieces.scores_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  · rw [Pieces.num_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  · rw [Pieces.max_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  · rw [Pieces.den_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]

/-- A middle tile. -/
theorem middle (t : Fin cfg0.N) (h0 : ¬t.val % 16 = 0) (h1 : ¬t.val % 16 = 15) :
    (outsAt0 m c t.val t.isLt).2.1 = k0_pay8 (F := Ideal) (iblk m c 2 t) (iblk m c 0 t) (iblk m c 1 t) (iblk m c 3 t)
    ∧ (outsAt0 m c t.val t.isLt).2.2.1 = k0_pay2 (F := Ideal) (iblk m c 2 t) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.1
    ∧ (outsAt0 m c t.val t.isLt).2.2.2.1 = k0_pay3 (F := Ideal) (k0_pay9 (F := Ideal) (iblk m c 2 t) (iblk m c 0 t) (iblk m c 1 t) (iblk m c 3 t) (outsAt0 m c (t.val - 1) (Nat.lt_of_le_of_lt (Nat.sub_le _ _) t.isLt)).2.2.2.1)
    ∧ (outsAt0 m c t.val t.isLt).2.2.2.2 = k0_pay1 (F := Ideal) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.2.2 := by
  rw [outsAt0_B m c t h0 h1]
  dsimp only
  refine ⟨?_, ?_, ?_, ?_⟩
  · rw [Pieces.scores_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.num_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.max_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.den_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-- A last tile. -/
theorem last (t : Fin cfg0.N) (h0 : ¬t.val % 16 = 0) (h1 : t.val % 16 = 15) :
    (outsAt0 m c t.val t.isLt).1 = k0_pay4 (F := Ideal) (k0_pay2 (F := Ideal) (iblk m c 2 t) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.1) (k0_pay1 (F := Ideal) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.2.2)
    ∧ (outsAt0 m c t.val t.isLt).2.1 = k0_pay8 (F := Ideal) (iblk m c 2 t) (iblk m c 0 t) (iblk m c 1 t) (iblk m c 3 t)
    ∧ (outsAt0 m c t.val t.isLt).2.2.1 = k0_pay2 (F := Ideal) (iblk m c 2 t) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.1
    ∧ (outsAt0 m c t.val t.isLt).2.2.2.1 = k0_pay3 (F := Ideal) (k0_pay9 (F := Ideal) (iblk m c 2 t) (iblk m c 0 t) (iblk m c 1 t) (iblk m c 3 t) (outsAt0 m c (t.val - 1) (Nat.lt_of_le_of_lt (Nat.sub_le _ _) t.isLt)).2.2.2.1)
    ∧ (outsAt0 m c t.val t.isLt).2.2.2.2 = k0_pay1 (F := Ideal) (k0_pay10 (F := Ideal) (iblk m c 2 t) (iblk m c 0 t) (iblk m c 1 t) (iblk m c 3 t) (outsAt0 m c (t.val - 1) (Nat.lt_of_le_of_lt (Nat.sub_le _ _) t.isLt)).2.2.2.1) (k0_pay11 (F := Ideal) (iblk m c 2 t) (iblk m c 0 t) (iblk m c 1 t) (iblk m c 3 t) (outsAt0 m c (t.val - 1) (Nat.lt_of_le_of_lt (Nat.sub_le _ _) t.isLt)).2.2.2.1) (outsAt0 m c (t.val - 1) (Nat.lt_of_le_of_lt (Nat.sub_le _ _) t.isLt)).2.2.2.2 := by
  rw [outsAt0_C m c t h0 h1]
  dsimp only
  refine ⟨?_, ?_, ?_, ?_, ?_⟩
  · rw [Pieces.result_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.scores_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.num_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.max_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · rw [Pieces.den_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

end Cert.KernelIdeal.Points

end
-- ==== Proof.KernelBlocks.lean ====
/-
  The grid has 64 points: point t handles batch tile t / 16 (8 rows) and position tile t % 16 (256 positions). Each input block
  at point t is its array, as the region finds it, at the global row 8 (t / 16) + r and the global position 256 (t % 16) + j.
-/
import proofs.«144867_j29738353557990_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- The grid has 64 points. -/
theorem lt64 (t : Fin cfg0.N) : t.val < 64 := lt_of_lt_of_eq t.isLt N_0

/-- The global batch row of row r of point t's batch tile. -/
def row (t : Fin cfg0.N) (r : Fin 8) : Fin 32 := ⟨8 * (t.val / 16) + r.val, by have := lt64 t; have := r.isLt; omega⟩

/-- The global position of position j of point t's tile. -/
def pos (t : Fin cfg0.N) (j : Fin 256) : Fin 4096 := ⟨256 * (t.val % 16) + j.val, by have := j.isLt; omega⟩

/-- The printed index maps, decided over the grid: the batch-tile index is t / 16, the position-tile index t % 16. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = t.val % 16 ∧ win0_5.index t (2 : Fin 3) = 0 :=
  (by decide +kernel : ∀ t : Fin grid0.N, _)

/-- The query block. -/
theorem blk0 (t : Fin cfg0.N) (r : Fin 8) (s : Fin 512) :
    iblk m c 0 t (ix3 r 0 s) = V m c main_v8 (ix3 (row t r) 0 s) := by
  obtain ⟨e0, e1, e2, -⟩ := idx_facts t
  show V m c main_v8 (((cfg0.win 0).blk t).view.emb (ix3 r 0 s)) = _
  refine congrArg (V m c main_v8) (funext fun a => Fin.ext ?_)
  match a with
  | ⟨0, _⟩ => show win0_0.index t (0 : Fin 3) * 8 + 1 * r.val = 8 * (t.val / 16) + r.val; omega
  | ⟨1, _⟩ => show win0_0.index t (1 : Fin 3) * 1 + 1 * 0 = 0; omega
  | ⟨2, _⟩ => show win0_0.index t (2 : Fin 3) * 512 + 1 * s.val = s.val; omega

/-- The weight block is the whole weight row. -/
theorem blk1 (t : Fin cfg0.N) (s : Fin 512) :
    iblk m c 1 t (ix2 0 s) = V m c main_v4 (ix2 0 s) := by
  obtain ⟨-, -, -, e0, e1, -⟩ := idx_facts t
  show V m c main_v4 (((cfg0.win 1).blk t).view.emb (ix2 0 s)) = _
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 512 + 1 * s.val = s.val; omega

/-- The feature block. -/
theorem blk2 (t : Fin cfg0.N) (r : Fin 8) (j : Fin 256) (s : Fin 512) :
    iblk m c 2 t (ix3 r j s) = V m c main_arg1 (ix3 (row t r) (pos t j) s) := by
  obtain ⟨-, -, -, -, -, e0, e1, e2, -⟩ := idx_facts t
  show V m c main_arg1 (((cfg0.win 2).blk t).view.emb (ix3 r j s)) = _
  refine congrArg (V m c main_arg1) (funext fun a => Fin.ext ?_)
  match a with
  | ⟨0, _⟩ => show win0_2.index t (0 : Fin 3) * 8 + 1 * r.val = 8 * (t.val / 16) + r.val; omega
  | ⟨1, _⟩ => show win0_2.index t (1 : Fin 3) * 256 + 1 * j.val = 256 * (t.val % 16) + j.val; omega
  | ⟨2, _⟩ => show win0_2.index t (2 : Fin 3) * 512 + 1 * s.val = s.val; omega

/-- The mask block. -/
theorem blk3 (t : Fin cfg0.N) (r : Fin 8) (j : Fin 256) :
    iblk m c 3 t (ix3 r j 0) = V m c main_v9 (ix3 (row t r) (pos t j) 0) := by
  obtain ⟨-, -, -, -, -, -, -, -, e0, e1, e2, -⟩ := idx_facts t
  show V m c main_v9 (((cfg0.win 3).blk t).view.emb (ix3 r j 0)) = _
  refine congrArg (V m c main_v9) (funext fun a => Fin.ext ?_)
  match a with
  | ⟨0, _⟩ => show win0_3.index t (0 : Fin 3) * 8 + 1 * r.val = 8 * (t.val / 16) + r.val; omega
  | ⟨1, _⟩ => show win0_3.index t (1 : Fin 3) * 256 + 1 * j.val = 256 * (t.val % 16) + j.val; omega
  | ⟨2, _⟩ => show win0_3.index t (2 : Fin 3) * 1 + 1 * 0 = 0; omega

end Cert.KernelIdeal.Blocks

end
-- ==== Proof.KernelPayloads.lean ====
/-
  The body's arithmetic at an index, at the ideal values. One grid point handles 8 batch rows and one tile of 256 positions
  over 512 features. With x0 the query block, x1 the weight row, x3 the feature block, xm the mask block and the three carried
  values (running maximum, denominator, numerator), each stored value is read here at explicit coordinates:
  the masked score of (row r, position j) is the sum over the features of tanh (query + feature) times weight, or −∞ where the
  mask word is zero; the new maximum is the old one joined with the tile's maximum; the rescale factor and the tile's terms are
  exponentials of differences to the new maximum; denominator and numerator are rescaled and increased by the tile's sums;
  the result is numerator over denominator.
-/
import proofs.«144867_j29738353557990_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payloads

open Idealize.ShloMosaic Idealize.ShloMosaic.ValueIdx Cert.KernelIdeal Cert.KernelIdeal.Gen Cert.KernelIdeal.Facts

variable [Cert.KernelIdeal.Facts]

/-- The named mask fill is −∞. -/
theorem neg_big : Named.named (F := Ideal) Cert.KernelIdeal.κ "neg_big" (φ := .f32) 0xFF333332#32 = (⊥ : EReal) :=
  IdealRules.named_const.ideal_named_scalar _ _ _ _ rfl

/-- The word 0xFF800000 is −∞. -/
theorem ofBits_ninf : Ideal.ofBits .f32 0xFF800000#32 = (⊥ : EReal) := by simp [Ideal.ofBits, Ideal.ieee]

/-! ## Keepdims casts and broadcasts at coordinates -/

theorem cast_S8x256 {α : Type} (x : S8x256.Idx → α) (r : Fin 8) (j : Fin 256) :
    shapeCast S8x256x1 x shapeCasts_S8x256_S8x256x1 (ix3 r j 0) = x (ix2 r j) :=
  shapeCast_apply x _ _ _ (by
    rw [Shape.rowMajor_val_two, Shape.rowMajor_val_three]
    show r.val * 256 + j.val = (r.val * 256 + j.val) * 1 + 0
    omega)

theorem cast_S8x1 {α : Type} (x : S8x1.Idx → α) (r : Fin 8) :
    shapeCast S8x1x1 x shapeCasts_S8x1_S8x1x1 (ix3 r 0 0) = x (ix2 r 0) :=
  shapeCast_apply x _ _ _ (by
    rw [Shape.rowMajor_val_two, Shape.rowMajor_val_three]
    show r.val * 1 + 0 = (r.val * 1 + 0) * 1 + 0
    omega)

theorem cast_S8x512 {α : Type} (x : S8x512.Idx → α) (r : Fin 8) (c : Fin 512) :
    shapeCast S8x1x512 x shapeCasts_S8x512_S8x1x512 (ix3 r 0 c) = x (ix2 r c) :=
  shapeCast_apply x _ _ _ (by
    rw [Shape.rowMajor_val_two, Shape.rowMajor_val_three]
    show r.val * 512 + c.val = (r.val * 1 + 0) * 512 + c.val
    omega)

theorem cast_S1x512 {α : Type} (x : S1x512.Idx → α) (s : Fin 512) :
    shapeCast S1x1x512 x shapeCasts_S1x512_S1x1x512 (ix3 0 0 s) = x (ix2 0 s) :=
  shapeCast_apply x _ _ _ (by
    rw [Shape.rowMajor_val_two, Shape.rowMajor_val_three]
    show 0 * 512 + s.val = (0 * 1 + 0) * 512 + s.val
    omega)

theorem bcast_query {α : Type} (x : S8x1x512.Idx → α) (r : Fin 8) (j : Fin 256) (s : Fin 512) :
    broadcastTo S8x256x512 x broadcasts_S8x1x512_S8x256x512 (ix3 r j s) = x (ix3 r 0 s) :=
  broadcastTo_apply x _ _ _ fun a => by match a with | ⟨0, _⟩ => rfl | ⟨1, _⟩ => rfl | ⟨2, _⟩ => rfl

theorem bcast_weight {α : Type} (x : S1x1x512.Idx → α) (r : Fin 8) (j : Fin 256) (s : Fin 512) :
    broadcastTo S8x256x512 x broadcasts_S1x1x512_S8x256x512 (ix3 r j s) = x (ix3 0 0 s) :=
  broadcastTo_apply x _ _ _ fun a => by match a with | ⟨0, _⟩ => rfl | ⟨1, _⟩ => rfl | ⟨2, _⟩ => rfl

theorem bcast_row_tile {α : Type} (x : S8x1x1.Idx → α) (r : Fin 8) (j : Fin 256) :
    broadcastTo S8x256x1 x broadcasts_S8x1x1_S8x256x1 (ix3 r j 0) = x (ix3 r 0 0) :=
  broadcastTo_apply x _ _ _ fun a => by match a with | ⟨0, _⟩ => rfl | ⟨1, _⟩ => rfl | ⟨2, _⟩ => rfl

theorem bcast_row_feat {α : Type} (x : S8x1x1.Idx → α) (r : Fin 8) (c : Fin 512) :
    broadcastTo S8x1x512 x broadcasts_S8x1x1_S8x1x512 (ix3 r 0 c) = x (ix3 r 0 0) :=
  broadcastTo_apply x _ _ _ fun a => by match a with | ⟨0, _⟩ => rfl | ⟨1, _⟩ => rfl | ⟨2, _⟩ => rfl

theorem bcast_tile_feat {α : Type} (x : S8x256x1.Idx → α) (r : Fin 8) (j : Fin 256) (c : Fin 512) :
    broadcastTo S8x256x512 x broadcasts_S8x256x1_S8x256x512 (ix3 r j c) = x (ix3 r j 0) :=
  broadcastTo_apply x _ _ _ fun a => by match a with | ⟨0, _⟩ => rfl | ⟨1, _⟩ => rfl | ⟨2, _⟩ => rfl

/-! ## The reductions at coordinates -/

theorem sum_features (v : FVec Ideal S8x256x512 .f32) (hφ : FKind.Formats .f32)
    (hacc : (0x00000000#32 : BitVec 32) = FKind.add.neutral .f32 hφ) (r : Fin 8) (j : Fin 256) :
    multiReduction .add [2] S8x256 v 0x00000000#32 reduces_S8x256x512_S8x256 hφ hacc (ix2 r j) = ∑ s : Fin 512, v (ix3 r j s) :=
  (Ideal.multiReduction_add_single v _ reduces_S8x256x512_S8x256 hφ hacc (ix2 r j)).trans
    (Finset.sum_congr rfl fun s _ => congrArg v (funext fun a => Fin.ext (by
      match a with | ⟨0, _⟩ => rfl | ⟨1, _⟩ => rfl | ⟨2, _⟩ => rfl)))

theorem sum_tile (v : FVec Ideal S8x256x1 .f32) (hφ : FKind.Formats .f32)
    (hacc : (0x00000000#32 : BitVec 32) = FKind.add.neutral .f32 hφ) (r : Fin 8) :
    multiReduction .add [1] S8x1 v 0x00000000#32 reduces_S8x256x1_S8x1 hφ hacc (ix2 r 0) = ∑ j : Fin 256, v (ix3 r j 0) :=
  (Ideal.multiReduction_add_single v _ reduces_S8x256x1_S8x1 hφ hacc (ix2 r 0)).trans
    (Finset.sum_congr rfl fun j _ => congrArg v (funext fun a => Fin.ext (by
      match a with | ⟨0, _⟩ => rfl | ⟨1, _⟩ => rfl | ⟨2, _⟩ => rfl)))

theorem sum_tile_feat (v : FVec Ideal S8x256x512 .f32) (hφ : FKind.Formats .f32)
    (hacc : (0x00000000#32 : BitVec 32) = FKind.add.neutral .f32 hφ) (r : Fin 8) (c : Fin 512) :
    multiReduction .add [1] S8x512 v 0x00000000#32 reduces_S8x256x512_S8x512 hφ hacc (ix2 r c) = ∑ j : Fin 256, v (ix3 r j c) :=
  (Ideal.multiReduction_add_single v _ reduces_S8x256x512_S8x512 hφ hacc (ix2 r c)).trans
    (Finset.sum_congr rfl fun j _ => congrArg v (funext fun a => Fin.ext (by
      match a with | ⟨0, _⟩ => rfl | ⟨1, _⟩ => rfl | ⟨2, _⟩ => rfl)))

theorem max_tile (v : FVec Ideal S8x256x1 .f32) (hφ : FKind.Formats .f32)
    (hacc : (0xFF800000#32 : BitVec 32) = FKind.maximumf.neutral .f32 hφ) (r : Fin 8) :
    multiReduction .maximumf [1] S8x1 v 0xFF800000#32 reduces_S8x256x1_S8x1 hφ hacc (ix2 r 0)
      = (Finset.univ : Finset (Fin 256)).fold max ⊥ (fun j => v (ix3 r j 0)) := by
  refine (Ideal.multiReduction_maximumf_single v _ reduces_S8x256x1_S8x1 hφ hacc (ix2 r 0)).trans ?_
  have e : (v ∘ reduces_S8x256x1_S8x1.lift (ix2 r 0)) = fun j : Fin 256 => v (ix3 r j 0) :=
    funext fun j => congrArg v (funext fun a => Fin.ext (by
      match a with | ⟨0, _⟩ => rfl | ⟨1, _⟩ => rfl | ⟨2, _⟩ => rfl))
  rw [e]
  exact congrArg (fun z => (Finset.univ : Finset (Fin 256)).fold max z (fun j => v (ix3 r j 0))) ofBits_ninf

/-! ## The payloads at coordinates -/

/-- A vector tanh at an index is the tanh of the element. -/
theorem tanh_at {s : Shape} {φ : FTy} (v : FVec Ideal s φ) (i : s.Idx) : tanh v i = Ideal.tanh (v i) := rfl

/-- The score of (row r, position j) before masking: the sum over the features of tanh (query + feature) times weight. -/
def score (x0 : Vec Ideal S8x1x512 .f32) (x1 : Vec Ideal S1x512 .f32) (x3 : Vec Ideal S8x256x512 .f32) (r : Fin 8) (j : Fin 256) : EReal :=
  ∑ s : Fin 512, Ideal.tanh (x0 (ix3 r 0 s) + x3 (ix3 r j s)) * x1 (ix2 0 s)

/-- The masked score: the score where the mask word is not zero, −∞ elsewhere. -/
theorem pay8_apply (x3 : Vec Ideal S8x256x512 .f32) (x0 : Vec Ideal S8x1x512 .f32) (x1 : Vec Ideal S1x512 .f32)
    (xm : Vec Ideal S8x256x1 .i32) (r : Fin 8) (j : Fin 256) :
    k0_pay8 (F := Ideal) x3 x0 x1 xm (ix3 r j 0)
      = Scalar.select (IntOp.cmpi .ne (xm (ix3 r j 0)) 0#32) (score x0 x1 x3 r j) ⊥ := by
  unfold k0_pay8 score
  simp only [select_apply, cast_S8x256, broadcast_apply, neg_big, shapeCast_self]
  show Scalar.select (IntOp.cmpi .ne (xm (ix3 r j 0)) 0#32) _ ⊥ = _
  refine congrArg (fun z => Scalar.select (IntOp.cmpi .ne (xm (ix3 r j 0)) 0#32) z ⊥) ((sum_features _ _ _ r j).trans ?_)
  refine Finset.sum_congr rfl fun s _ => ?_
  simp only [mulf_apply, bcast_weight, cast_S1x512, tanh_at, addf_apply, bcast_query]

/-- The new running maximum: the old one joined with the maximum of the tile's masked scores. -/
theorem pay9_apply (x3 : Vec Ideal S8x256x512 .f32) (x0 : Vec Ideal S8x1x512 .f32) (x1 : Vec Ideal S1x512 .f32)
    (xm : Vec Ideal S8x256x1 .i32) (vm : Vec Ideal S8x1x1 .f32) (r : Fin 8) :
    k0_pay9 (F := Ideal) x3 x0 x1 xm vm (ix3 r 0 0)
      = max (vm (ix3 r 0 0)) ((Finset.univ : Finset (Fin 256)).fold max ⊥ (fun j => k0_pay8 (F := Ideal) x3 x0 x1 xm (ix3 r j 0))) := by
  unfold k0_pay9
  simp only [maximumf_apply, cast_S8x1]
  exact congrArg (max (vm (ix3 r 0 0))) (max_tile _ _ _ r)

/-- The rescale factor: exp (old maximum − new maximum). -/
theorem pay10_apply (x3 : Vec Ideal S8x256x512 .f32) (x0 : Vec Ideal S8x1x512 .f32) (x1 : Vec Ideal S1x512 .f32)
    (xm : Vec Ideal S8x256x1 .i32) (vm : Vec Ideal S8x1x1 .f32) (r : Fin 8) :
    k0_pay10 (F := Ideal) x3 x0 x1 xm vm (ix3 r 0 0)
      = Ideal.exp (vm (ix3 r 0 0) - k0_pay9 (F := Ideal) x3 x0 x1 xm vm (ix3 r 0 0)) := by
  unfold k0_pay10
  rfl

/-- The tile's terms: exp (masked score − new maximum). -/
theorem pay11_apply (x3 : Vec Ideal S8x256x512 .f32) (x0 : Vec Ideal S8x1x512 .f32) (x1 : Vec Ideal S1x512 .f32)
    (xm : Vec Ideal S8x256x1 .i32) (vm : Vec Ideal S8x1x1 .f32) (r : Fin 8) (j : Fin 256) :
    k0_pay11 (F := Ideal) x3 x0 x1 xm vm (ix3 r j 0)
      = Ideal.exp (k0_pay8 (F := Ideal) x3 x0 x1 xm (ix3 r j 0) - k0_pay9 (F := Ideal) x3 x0 x1 xm vm (ix3 r 0 0)) := by
  unfold k0_pay11
  show Ideal.exp (k0_pay8 (F := Ideal) x3 x0 x1 xm (ix3 r j 0)
    - broadcastTo S8x256x1 (k0_pay9 (F := Ideal) x3 x0 x1 xm vm) broadcasts_S8x1x1_S8x256x1 (ix3 r j 0)) = _
  rw [bcast_row_tile]

/-- The new denominator: the old one rescaled, plus the sum of the tile's terms. -/
theorem pay1_apply (v28 : FVec Ideal S8x1x1 .f32) (v31 : FVec Ideal S8x256x1 .f32) (vl : Vec Ideal S8x1x1 .f32) (r : Fin 8) :
    k0_pay1 (F := Ideal) v28 v31 vl (ix3 r 0 0) = v28 (ix3 r 0 0) * vl (ix3 r 0 0) + ∑ j : Fin 256, v31 (ix3 r j 0) := by
  unfold k0_pay1
  simp only [shapeCast_self, addf_apply, mulf_apply, cast_S8x1]
  exact congrArg (v28 (ix3 r 0 0) * vl (ix3 r 0 0) + ·) (sum_tile v31 _ _ r)

/-- The new numerator: the old one rescaled, plus the sum of the tile's terms times the features. -/
theorem pay2_apply (x3 : Vec Ideal S8x256x512 .f32) (v28 : FVec Ideal S8x1x1 .f32) (v31 : FVec Ideal S8x256x1 .f32)
    (va : Vec Ideal S8x1x512 .f32) (r : Fin 8) (c : Fin 512) :
    k0_pay2 (F := Ideal) x3 v28 v31 va (ix3 r 0 c)
      = v28 (ix3 r 0 0) * va (ix3 r 0 c) + ∑ j : Fin 256, v31 (ix3 r j 0) * x3 (ix3 r j c) := by
  unfold k0_pay2
  simp only [shapeCast_self, addf_apply, mulf_apply, bcast_row_feat, cast_S8x512]
  refine congrArg (v28 (ix3 r 0 0) * va (ix3 r 0 c) + ·) ((sum_tile_feat _ _ _ r c).trans (Finset.sum_congr rfl fun j _ => ?_))
  rw [mulf_apply, bcast_tile_feat]

/-- The stored maximum is the new maximum. -/
theorem pay3_eq (v26 : FVec Ideal S8x1x1 .f32) : k0_pay3 (F := Ideal) v26 = v26 := by
  unfold k0_pay3
  exact shapeCast_self _ _

/-- The result: numerator over denominator. -/
theorem pay4_apply (v57 : Vec Ideal S8x1x512 .f32) (v58 : Vec Ideal S8x1x1 .f32) (r : Fin 8) (c : Fin 512) :
    k0_pay4 (F := Ideal) v57 v58 (ix3 r 0 c) = Ideal.div (v57 (ix3 r 0 c)) (v58 (ix3 r 0 0)) := by
  unfold k0_pay4
  rw [divf_apply, bcast_row_feat]

/-- The numerator starts at 0, the maximum at −∞, the denominator at 0. -/
theorem pay5_apply (i : S8x1x512.Idx) : k0_pay5 (F := Ideal) i = 0 := by
  unfold k0_pay5
  rw [shapeCast_self]
  exact Ideal.ofBits_zero_f32

theorem pay6_apply (i : S8x1x1.Idx) : k0_pay6 (F := Ideal) i = ⊥ := by
  unfold k0_pay6
  rw [shapeCast_self]
  exact ofBits_ninf

theorem pay7_apply (i : S8x1x1.Idx) : k0_pay7 (F := Ideal) i = 0 := by
  unfold k0_pay7
  rw [shapeCast_self]
  exact Ideal.ofBits_zero_f32

end Cert.KernelIdeal.Payloads

end
-- ==== Proof.OnlineSoftmax.lean ====
/-
  A softmax-weighted average computed in ONE pass over tiles, with a running maximum, against the two-pass softmax.

  Scores `s n j` (tile `n`, position `j` in the tile) are extended reals, never `⊤`, possibly `⊥` (a masked position); values
  `f n j` are real. The one-pass computation keeps, after `n` tiles, the running maximum `runM s n` of the scores seen, the
  running denominator `runL s n` and the running numerator `runA s f n`, both taken relative to the running maximum; a new tile
  first rescales both by `exp (old maximum - new maximum)` and then adds the tile's terms `exp (s n j - new maximum)`.
  `exp` here is the extended reals' (`exp ⊥ = 0`), and `⊥ - ⊥ = ⊥`, so a tile whose scores are all `⊥` before any real score has been
  seen contributes zeros and leaves the sums at 0.
-/
import Idealize.ShloMosaic.PureOps.Ideal

noncomputable section

namespace OnlineSoftmax

open Idealize.ShloMosaic

variable {J : ℕ}

/-- The maximum of one tile's scores (`⊥` for no scores). -/
def tileMax (s : Fin J → EReal) : EReal := (Finset.univ : Finset (Fin J)).fold max ⊥ s

/-- The running maximum after `n` tiles. -/
def runM (s : ℕ → Fin J → EReal) : ℕ → EReal
  | 0 => ⊥
  | n + 1 => max (runM s n) (tileMax (s n))

/-- The running denominator after `n` tiles, relative to the running maximum. -/
def runL (s : ℕ → Fin J → EReal) : ℕ → EReal
  | 0 => 0
  | n + 1 => Ideal.exp (runM s n - runM s (n + 1)) * runL s n + ∑ j : Fin J, Ideal.exp (s n j - runM s (n + 1))

/-- The running numerator after `n` tiles, relative to the running maximum. -/
def runA (s f : ℕ → Fin J → EReal) : ℕ → EReal
  | 0 => 0
  | n + 1 => Ideal.exp (runM s n - runM s (n + 1)) * runA s f n + ∑ j : Fin J, Ideal.exp (s n j - runM s (n + 1)) * f n j

/-! ### Real shadows of the extended-real terms -/

/-- The real value of `exp (x - m)`. For `x ≤ m ≠ ⊤` the extended exponential is this real (`exp_sub_eq`). -/
def ew (x m : EReal) : ℝ := (Ideal.exp (x - m)).toReal

/-- A finite sum of coerced reals is the coerced sum. -/
theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The extended exponential is never negative. -/
theorem exp_nonneg (x : EReal) : 0 ≤ Ideal.exp x := by
  induction x using EReal.rec with
  | bot => simp
  | coe r => rw [Ideal.exp_coe]; exact EReal.coe_nonneg.mpr (Real.exp_pos r).le
  | top => simp

theorem ew_nonneg (x m : EReal) : 0 ≤ ew x m := EReal.toReal_nonneg (exp_nonneg _)

/-- `exp (R - R) = 1` for a real `R`. -/
theorem ew_self (R : ℝ) : ew (R : EReal) (R : EReal) = 1 := by
  unfold ew
  rw [← EReal.coe_sub, sub_self, Ideal.exp_coe, Real.exp_zero, EReal.toReal_coe]

/-- Below a maximum that is not `⊤`, `exp (x - m)` is a real: `⊥ - m = ⊥` gives 0, and a real minus a real is real. -/
theorem exp_sub_eq {x m : EReal} (h : x ≤ m) (hm : m ≠ ⊤) : Ideal.exp (x - m) = ((ew x m : ℝ) : EReal) := by
  unfold ew
  induction m using EReal.rec with
  | bot =>
    have hx : x = ⊥ := le_bot_iff.mp h
    subst hx
    simp [EReal.bot_sub]
  | coe r =>
    induction x using EReal.rec with
    | bot => simp [EReal.bot_sub]
    | coe y => rw [← EReal.coe_sub, Ideal.exp_coe, EReal.toReal_coe]
    | top => exact absurd h (not_le.mpr (EReal.coe_lt_top r))
  | top => exact absurd rfl hm

/-- Rescaling: for `x ≤ m ≤ m' ≠ ⊤`, `exp (m - m') * exp (x - m) = exp (x - m')`; when `m` or `x` is `⊥` both sides are 0. -/
theorem ew_mul {x m m' : EReal} (h1 : x ≤ m) (h2 : m ≤ m') (hm' : m' ≠ ⊤) : ew m m' * ew x m = ew x m' := by
  unfold ew
  induction m' using EReal.rec with
  | bot =>
    have hm : m = ⊥ := le_bot_iff.mp h2
    subst hm
    have hx : x = ⊥ := le_bot_iff.mp h1
    subst hx
    simp [EReal.bot_sub]
  | coe r' =>
    induction m using EReal.rec with
    | bot =>
      have hx : x = ⊥ := le_bot_iff.mp h1
      subst hx
      simp [EReal.bot_sub]
    | coe r =>
      induction x using EReal.rec with
      | bot => simp [EReal.bot_sub]
      | coe y =>
        rw [← EReal.coe_sub, ← EReal.coe_sub, ← EReal.coe_sub, Ideal.exp_coe, Ideal.exp_coe, Ideal.exp_coe,
          EReal.toReal_coe, EReal.toReal_coe, EReal.toReal_coe, ← Real.exp_add]
        congr 1; ring
      | top => exact absurd h1 (not_le.mpr (EReal.coe_lt_top r))
    | top => exact absurd h2 (not_le.mpr (EReal.coe_lt_top r'))
  | top => exact absurd rfl hm'

/-! ### The running maximum -/

theorem le_tileMax (s : Fin J → EReal) (j : Fin J) : s j ≤ tileMax s :=
  (Finset.le_fold_max _).mpr (Or.inr ⟨j, Finset.mem_univ j, le_rfl⟩)

theorem tileMax_le {s : Fin J → EReal} {c : EReal} (h : ∀ j, s j ≤ c) : tileMax s ≤ c :=
  (Finset.fold_max_le _).mpr ⟨bot_le, fun j _ => h j⟩

theorem runM_mono (s : ℕ → Fin J → EReal) (n : ℕ) : runM s n ≤ runM s (n + 1) := by
  show runM s n ≤ max (runM s n) (tileMax (s n))
  exact le_max_left _ _

/-- Every score of the first `n` tiles is at most the running maximum after `n` tiles. -/
theorem le_runM (s : ℕ → Fin J → EReal) {i n : ℕ} (h : i < n) (j : Fin J) : s i j ≤ runM s n := by
  induction n with
  | zero => exact absurd h (Nat.not_lt_zero i)
  | succ n ih =>
    show s i j ≤ max (runM s n) (tileMax (s n))
    rcases Nat.lt_succ_iff_lt_or_eq.mp h with h' | h'
    · exact (ih h').trans (le_max_left _ _)
    · subst h'; exact (le_tileMax (s i) j).trans (le_max_right _ _)

/-- A bound on the scores of the first `n` tiles bounds the running maximum. -/
theorem runM_le (s : ℕ → Fin J → EReal) {c : EReal} (n : ℕ) (h : ∀ i, i < n → ∀ j, s i j ≤ c) : runM s n ≤ c := by
  induction n with
  | zero => exact bot_le
  | succ n ih =>
    show max (runM s n) (tileMax (s n)) ≤ c
    exact max_le (ih fun i hi => h i (hi.trans (Nat.lt_succ_self n))) (tileMax_le (h n (Nat.lt_succ_self n)))

/-! ### The invariant: the running sums are the plain sums taken relative to the running maximum -/

/-- After `n` tiles whose scores are bounded by a real, the running denominator is `∑ exp (s - runM s n)` over those tiles. -/
theorem runL_eq (s : ℕ → Fin J → EReal) (R : ℝ) (n : ℕ) (h : ∀ i, i < n → ∀ j, s i j ≤ (R : EReal)) :
    runL s n = ((∑ i ∈ Finset.range n, ∑ j : Fin J, ew (s i j) (runM s n) : ℝ) : EReal) := by
  induction n with
  | zero => simp [runL]
  | succ n ih =>
    have h' : ∀ i, i < n → ∀ j, s i j ≤ (R : EReal) := fun i hi => h i (hi.trans (Nat.lt_succ_self n))
    have hm' : runM s (n + 1) ≠ ⊤ := ne_top_of_le_ne_top (EReal.coe_ne_top R) (runM_le s (n + 1) h)
    have hmm : runM s n ≤ runM s (n + 1) := runM_mono s n
    have hterm : ∀ j, Ideal.exp (s n j - runM s (n + 1)) = ((ew (s n j) (runM s (n + 1)) : ℝ) : EReal) :=
      fun j => exp_sub_eq (le_runM s (Nat.lt_succ_self n) j) hm'
    show Ideal.exp (runM s n - runM s (n + 1)) * runL s n + ∑ j : Fin J, Ideal.exp (s n j - runM s (n + 1)) = _
    rw [ih h', exp_sub_eq hmm hm', Finset.sum_congr rfl (fun j _ => hterm j), ← coe_sum, ← EReal.coe_mul,
      ← EReal.coe_add]
    congr 1
    rw [Finset.sum_range_succ, Finset.mul_sum]
    congr 1
    refine Finset.sum_congr rfl fun i hi => ?_
    rw [Finset.mul_sum]
    exact Finset.sum_congr rfl fun j _ => ew_mul (le_runM s (Finset.mem_range.mp hi) j) hmm hm'

/-- The same for the running numerator, the values being real. -/
theorem runA_eq (s f : ℕ → Fin J → EReal) (R : ℝ) (n : ℕ) (h : ∀ i, i < n → ∀ j, s i j ≤ (R : EReal))
    (hf : ∀ i, i < n → ∀ j, f i j = ((f i j).toReal : EReal)) :
    runA s f n = ((∑ i ∈ Finset.range n, ∑ j : Fin J, ew (s i j) (runM s n) * (f i j).toReal : ℝ) : EReal) := by
  induction n with
  | zero => simp [runA]
  | succ n ih =>
    have h' : ∀ i, i < n → ∀ j, s i j ≤ (R : EReal) := fun i hi => h i (hi.trans (Nat.lt_succ_self n))
    have hf' : ∀ i, i < n → ∀ j, f i j = ((f i j).toReal : EReal) := fun i hi => hf i (hi.trans (Nat.lt_succ_self n))
    have hm' : runM s (n + 1) ≠ ⊤ := ne_top_of_le_ne_top (EReal.coe_ne_top R) (runM_le s (n + 1) h)
    have hmm : runM s n ≤ runM s (n + 1) := runM_mono s n
    have hterm : ∀ j, Ideal.exp (s n j - runM s (n + 1)) * f n j
        = ((ew (s n j) (runM s (n + 1)) * (f n j).toReal : ℝ) : EReal) := by
      intro j
      rw [EReal.coe_mul, ← hf n (Nat.lt_succ_self n) j, exp_sub_eq (le_runM s (Nat.lt_succ_self n) j) hm']
    show Ideal.exp (runM s n - runM s (n + 1)) * runA s f n
      + ∑ j : Fin J, Ideal.exp (s n j - runM s (n + 1)) * f n j = _
    rw [ih h' hf', exp_sub_eq hmm hm', Finset.sum_congr rfl (fun j _ => hterm j), ← coe_sum, ← EReal.coe_mul,
      ← EReal.coe_add]
    congr 1
    rw [Finset.sum_range_succ, Finset.mul_sum]
    congr 1
    refine Finset.sum_congr rfl fun i hi => ?_
    rw [Finset.mul_sum]
    refine Finset.sum_congr rfl fun j _ => ?_
    rw [← mul_assoc, ew_mul (le_runM s (Finset.mem_range.mp hi) j) hmm hm']

/-- After `K` tiles the one-pass quotient is the two-pass softmax average: if `M` is the (real) maximum of the scores of the
    first `K` tiles and the values are real, then numerator / denominator is the sum of the values weighted by
    `exp (s - M) / ∑ exp (s - M)`. -/
theorem run_div_eq (K : ℕ) (s f : ℕ → Fin J → EReal) (M : EReal)
    (hM : ∃ R : ℝ, M = (R : EReal))
    (hle : ∀ n, n < K → ∀ j, s n j ≤ M) (hatt : ∃ n, n < K ∧ ∃ j, s n j = M)
    (hf : ∀ n, n < K → ∀ j, ∃ r : ℝ, f n j = (r : EReal)) :
    Ideal.div (runA s f K) (runL s K)
      = ∑ n : Fin K, ∑ j : Fin J, f n j * Ideal.div (Ideal.exp (s n j - M)) (∑ n' : Fin K, ∑ j' : Fin J, Ideal.exp (s n' j' - M)) := by
  obtain ⟨R, rfl⟩ := hM
  obtain ⟨n₀, hn₀, j₀, hj₀⟩ := hatt
  have hf' : ∀ n, n < K → ∀ j, f n j = ((f n j).toReal : EReal) := by
    intro n hn j
    obtain ⟨r, hr⟩ := hf n hn j
    rw [hr, EReal.toReal_coe]
  -- the running maximum after all tiles is the maximum
  have hMK : runM s K = (R : EReal) := by
    refine le_antisymm (runM_le s K hle) ?_
    rw [← hj₀]
    exact le_runM s hn₀ j₀
  -- the two running sums at the end, as reals relative to the maximum
  have hLeq := runL_eq s R K hle
  have hAeq := runA_eq s f R K hle hf'
  rw [hMK] at hLeq hAeq
  -- the denominator is positive: the attained term is 1 and the others are not negative
  have hLpos : 0 < ∑ i ∈ Finset.range K, ∑ j : Fin J, ew (s i j) (R : EReal) := by
    have h1 : ew (s n₀ j₀) (R : EReal) = 1 := by rw [hj₀, ew_self]
    calc (0 : ℝ) < 1 := one_pos
      _ = ew (s n₀ j₀) (R : EReal) := h1.symm
      _ ≤ ∑ j : Fin J, ew (s n₀ j) (R : EReal) :=
          Finset.single_le_sum (f := fun j => ew (s n₀ j) (R : EReal)) (fun j _ => ew_nonneg _ _) (Finset.mem_univ j₀)
      _ ≤ ∑ i ∈ Finset.range K, ∑ j : Fin J, ew (s i j) (R : EReal) :=
          Finset.single_le_sum (f := fun i => ∑ j : Fin J, ew (s i j) (R : EReal))
            (fun i _ => Finset.sum_nonneg fun j _ => ew_nonneg _ _) (Finset.mem_range.mpr hn₀)
  generalize hLdef : (∑ i ∈ Finset.range K, ∑ j : Fin J, ew (s i j) (R : EReal)) = L at hLeq hLpos
  have hLne : L ≠ 0 := hLpos.ne'
  -- the two-pass denominator is the same real
  have hden : (∑ n' : Fin K, ∑ j' : Fin J, Ideal.exp (s n' j' - (R : EReal))) = (L : EReal) := by
    rw [← hLdef, ← Fin.sum_univ_eq_sum_range (fun i => ∑ j : Fin J, ew (s i j) (R : EReal)) K, coe_sum]
    refine Finset.sum_congr rfl fun n' _ => ?_
    rw [coe_sum]
    exact Finset.sum_congr rfl fun j' _ => exp_sub_eq (hle n' n'.isLt j') (EReal.coe_ne_top R)
  -- each weighted value is a real
  have hterm : ∀ (n : Fin K) (j : Fin J), f n j * Ideal.div (Ideal.exp (s n j - (R : EReal))) (L : EReal)
      = (((ew (s n j) (R : EReal) * (f n j).toReal) * (1 / L) : ℝ) : EReal) := by
    intro n j
    rw [Ideal.div_coe hLne, exp_sub_eq (hle n n.isLt j) (EReal.coe_ne_top R)]
    conv_lhs => rw [hf' n n.isLt j]
    rw [← EReal.coe_mul, ← EReal.coe_mul]
    congr 1
    ring
  rw [hden, hAeq, hLeq, Ideal.div_coe hLne, ← EReal.coe_mul]
  rw [Finset.sum_congr rfl fun n _ => Finset.sum_congr rfl fun j _ => hterm n j]
  rw [Finset.sum_congr rfl fun (n : Fin K) _ => (coe_sum Finset.univ fun j : Fin J =>
    (ew (s n j) (R : EReal) * (f n j).toReal) * (1 / L)).symm, ← coe_sum]
  congr 1
  rw [← Fin.sum_univ_eq_sum_range (fun i => ∑ j : Fin J, ew (s i j) (R : EReal) * (f i j).toReal) K, Finset.sum_mul]
  exact Finset.sum_congr rfl fun n _ => Finset.sum_mul _ _ _

end OnlineSoftmax

end
-- ==== Proof.KernelStep.lean ====
/-
  One grid point advances the one-pass softmax by one tile. If the scores block of the point holds tile k of a row's masked
  scores, and the carried values hold the running maximum, denominator and numerator after k tiles, then what the body stores
  holds them after k + 1 tiles: the new maximum joins the old one with the tile's maximum, and denominator and numerator are
  rescaled by exp (old maximum − new maximum) and increased by the tile's terms.
-/
import proofs.«144867_j29738353557990_1_alg».proof.Proof.KernelPayloads
import proofs.«144867_j29738353557990_1_alg».proof.Proof.OnlineSoftmax

noncomputable section

namespace Cert.KernelIdeal.Step

open Idealize.ShloMosaic Idealize.ShloMosaic.ValueIdx Cert.KernelIdeal Cert.KernelIdeal.Gen Cert.KernelIdeal.Payloads OnlineSoftmax

variable [Cert.KernelIdeal.Facts]

variable (x3 : Vec Ideal S8x256x512 .f32) (x0 : Vec Ideal S8x1x512 .f32) (x1 : Vec Ideal S1x512 .f32) (xm : Vec Ideal S8x256x1 .i32)
  (vm : Vec Ideal S8x1x1 .f32) (vl : Vec Ideal S8x1x1 .f32) (va : Vec Ideal S8x1x512 .f32)
  (s : ℕ → Fin 256 → EReal) (k : ℕ) (r : Fin 8)

/-- The stored maximum after the point. -/
theorem max_step (hs : ∀ j : Fin 256, k0_pay8 (F := Ideal) x3 x0 x1 xm (ix3 r j 0) = s k j)
    (hm : vm (ix3 r 0 0) = runM s k) :
    k0_pay3 (F := Ideal) (k0_pay9 (F := Ideal) x3 x0 x1 xm vm) (ix3 r 0 0) = runM s (k + 1) := by
  rw [pay3_eq, pay9_apply, hm]
  show _ = max (runM s k) (tileMax (s k))
  unfold tileMax
  exact congrArg (max (runM s k)) (congrArg (fun g => (Finset.univ : Finset (Fin 256)).fold max ⊥ g) (funext hs))

/-- The new maximum before it is stored. -/
theorem max_new (hs : ∀ j : Fin 256, k0_pay8 (F := Ideal) x3 x0 x1 xm (ix3 r j 0) = s k j)
    (hm : vm (ix3 r 0 0) = runM s k) :
    k0_pay9 (F := Ideal) x3 x0 x1 xm vm (ix3 r 0 0) = runM s (k + 1) := by
  have h := max_step x3 x0 x1 xm vm s k r hs hm
  rwa [pay3_eq] at h

/-- The stored denominator after the point. -/
theorem den_step (hs : ∀ j : Fin 256, k0_pay8 (F := Ideal) x3 x0 x1 xm (ix3 r j 0) = s k j)
    (hm : vm (ix3 r 0 0) = runM s k) (hl : vl (ix3 r 0 0) = runL s k) :
    k0_pay1 (F := Ideal) (k0_pay10 (F := Ideal) x3 x0 x1 xm vm) (k0_pay11 (F := Ideal) x3 x0 x1 xm vm) vl (ix3 r 0 0)
      = runL s (k + 1) := by
  rw [pay1_apply, pay10_apply, max_new x3 x0 x1 xm vm s k r hs hm, hm, hl]
  show _ = Ideal.exp (runM s k - runM s (k + 1)) * runL s k + ∑ j : Fin 256, Ideal.exp (s k j - runM s (k + 1))
  refine congrArg (Ideal.exp (runM s k - runM s (k + 1)) * runL s k + ·) (Finset.sum_congr rfl fun j _ => ?_)
  rw [pay11_apply, max_new x3 x0 x1 xm vm s k r hs hm, hs j]

/-- The stored numerator after the point, at feature c. -/
theorem num_step (f : ℕ → Fin 256 → EReal) (c : Fin 512)
    (hs : ∀ j : Fin 256, k0_pay8 (F := Ideal) x3 x0 x1 xm (ix3 r j 0) = s k j)
    (hm : vm (ix3 r 0 0) = runM s k) (ha : va (ix3 r 0 c) = runA s f k) (hf : ∀ j : Fin 256, x3 (ix3 r j c) = f k j) :
    k0_pay2 (F := Ideal) x3 (k0_pay10 (F := Ideal) x3 x0 x1 xm vm) (k0_pay11 (F := Ideal) x3 x0 x1 xm vm) va (ix3 r 0 c)
      = runA s f (k + 1) := by
  rw [pay2_apply, pay10_apply, max_new x3 x0 x1 xm vm s k r hs hm, hm, ha]
  show _ = Ideal.exp (runM s k - runM s (k + 1)) * runA s f k + ∑ j : Fin 256, Ideal.exp (s k j - runM s (k + 1)) * f k j
  refine congrArg (Ideal.exp (runM s k - runM s (k + 1)) * runA s f k + ·) (Finset.sum_congr rfl fun j _ => ?_)
  rw [pay11_apply, max_new x3 x0 x1 xm vm s k r hs hm, hs j, hf j]

end Cert.KernelIdeal.Step

end
-- ==== Proof.Spec.lean ====
/-
  The quantities both programs compute, as functions of the six argument arrays, over literal shapes.
  With ν the Euclidean norm of the weight row: the normalized weight is scale · W / ν; the score of (batch row b, position t) is
  the sum over the 512 features of tanh (input + bias + feature) times the normalized weight; the masked score is the score where the
  mask holds and −∞ elsewhere. The 4096 positions are cut into 16 tiles of 256: `tile g d n j` is `g` at position 256 n + j
  for a tile n < 16 (and the default d past the last tile, which nothing reads).
-/
import Idealize.ShloMosaic.PureOps.Ideal
import Idealize.ShloMosaic.Lib.ValueIdx
import proofs.«144867_j29738353557990_1_alg».proof.Proof.OnlineSoftmax

noncomputable section

namespace Cert.Spec

open Idealize.ShloMosaic Idealize.ShloMosaic.ValueIdx OnlineSoftmax

/-- The normalized weight at feature s: scale · W / ν. -/
def wgt (ν : EReal) (a3 : (⟨2, ![1, 512]⟩ : Shape).Idx → EReal) (a4 : (⟨2, ![1, 1]⟩ : Shape).Idx → EReal) (s : Fin 512) : EReal :=
  Ideal.div (a4 (ix2 0 0) * a3 (ix2 0 s)) ν

/-- The score of (row b, position t): the sum over the features of tanh (input + bias + feature) · weight. -/
def score (ν : EReal) (a0 : (⟨2, ![32, 512]⟩ : Shape).Idx → EReal) (a1 : (⟨3, ![32, 4096, 512]⟩ : Shape).Idx → EReal)
    (a3 : (⟨2, ![1, 512]⟩ : Shape).Idx → EReal) (a4 : (⟨2, ![1, 1]⟩ : Shape).Idx → EReal) (a5 : (⟨1, ![512]⟩ : Shape).Idx → EReal)
    (b : Fin 32) (t : Fin 4096) : EReal :=
  ∑ s : Fin 512, Ideal.tanh (a0 (ix2 b s) + a5 (ix1 s) + a1 (ix3 b t s)) * wgt ν a3 a4 s

/-- The masked score: the score where the mask holds, −∞ elsewhere. -/
def mscore (ν : EReal) (a0 : (⟨2, ![32, 512]⟩ : Shape).Idx → EReal) (a1 : (⟨3, ![32, 4096, 512]⟩ : Shape).Idx → EReal)
    (a2 : (⟨3, ![32, 4096, 1]⟩ : Shape).Idx → BitVec 1)
    (a3 : (⟨2, ![1, 512]⟩ : Shape).Idx → EReal) (a4 : (⟨2, ![1, 1]⟩ : Shape).Idx → EReal) (a5 : (⟨1, ![512]⟩ : Shape).Idx → EReal)
    (b : Fin 32) (t : Fin 4096) : EReal :=
  Scalar.select (a2 (ix3 b t 0)) (score ν a0 a1 a3 a4 a5 b t) ⊥

/-- Position 256 n + j of a function of the 4096 positions, for a tile n < 16; the default past the last tile. -/
def tile (g : Fin 4096 → EReal) (d : EReal) (n : ℕ) (j : Fin 256) : EReal :=
  if h : n < 16 then g ⟨256 * n + j.val, by have := j.isLt; omega⟩ else d

theorem tile_lt (g : Fin 4096 → EReal) (d : EReal) (n : ℕ) (h : n < 16) (j : Fin 256) :
    tile g d n j = g ⟨256 * n + j.val, by have := j.isLt; omega⟩ := dif_pos h

/-- The row's maximum as the two-pass softmax takes it: −∞ joined with the maximum over the positions. -/
def rowMax (g : Fin 4096 → EReal) : EReal := max ⊥ ((Finset.univ : Finset (Fin 4096)).fold max ⊥ g)

/-- The two-pass softmax weight of position t: exp (score − maximum) over the sum of those. -/
def smax (g : Fin 4096 → EReal) (t : Fin 4096) : EReal :=
  Ideal.div (Ideal.exp (g t - rowMax g)) (∑ t' : Fin 4096, Ideal.exp (g t' - rowMax g))

/-! ### The row's maximum -/

/-- A fold of `max` from `⊥` over a finite set is `⊥` or one of the values. -/
theorem fold_max_eq {ι : Type*} (t : Finset ι) (g : ι → EReal) :
    t.fold max ⊥ g = ⊥ ∨ ∃ x ∈ t, t.fold max ⊥ g = g x := by
  classical
  induction t using Finset.induction_on with
  | empty => exact Or.inl Finset.fold_empty
  | insert a t ha ih =>
    rw [Finset.fold_insert ha]
    rcases max_choice (g a) (t.fold max ⊥ g) with h | h
    · exact Or.inr ⟨a, Finset.mem_insert_self a t, h⟩
    · rw [h]
      rcases ih with h0 | ⟨x, hx, hx'⟩
      · exact Or.inl h0
      · exact Or.inr ⟨x, Finset.mem_insert_of_mem hx, hx'⟩

/-- Every score is at most the row's maximum. -/
theorem le_rowMax (g : Fin 4096 → EReal) (t : Fin 4096) : g t ≤ rowMax g := by
  unfold rowMax
  rw [max_eq_right bot_le]
  exact (Finset.le_fold_max _).mpr (Or.inr ⟨t, Finset.mem_univ t, le_rfl⟩)

/-- If some score is not −∞ the row's maximum is one of the scores. -/
theorem rowMax_attained (g : Fin 4096 → EReal) (hne : ∃ t, g t ≠ ⊥) : ∃ t1, g t1 = rowMax g := by
  obtain ⟨t0, ht0⟩ := hne
  have hle := le_rowMax g t0
  unfold rowMax at hle ⊢
  rw [max_eq_right bot_le] at hle ⊢
  rcases fold_max_eq Finset.univ g with h | ⟨x, _, hx⟩
  · rw [h] at hle
    exact absurd (le_bot_iff.mp hle) ht0
  · exact ⟨x, hx.symm⟩

/-- If no score is +∞ and some score is not −∞ the row's maximum is a real. -/
theorem rowMax_real (g : Fin 4096 → EReal) (hg : ∀ t, g t ≠ ⊤) (hne : ∃ t, g t ≠ ⊥) :
    ∃ R : ℝ, rowMax g = (R : EReal) := by
  obtain ⟨t1, ht1⟩ := rowMax_attained g hne
  obtain ⟨t0, ht0⟩ := hne
  have hbot : rowMax g ≠ ⊥ := fun h => ht0 (le_bot_iff.mp (h ▸ le_rowMax g t0))
  have htop : rowMax g ≠ ⊤ := ht1 ▸ hg t1
  exact ⟨(rowMax g).toReal, (EReal.coe_toReal htop hbot).symm⟩

/-! ### Sums over the positions, tile by tile -/

/-- A sum over `Fin (m * n)` is the double sum over the quotient `a` and the remainder `b` of the index `b + n * a`. -/
theorem sum_fin_mul (m n : ℕ) (F : Fin (m * n) → EReal) :
    ∑ a : Fin m, ∑ b : Fin n, F (finProdFinEquiv (a, b)) = ∑ t : Fin (m * n), F t := by
  rw [← Fintype.sum_prod_type (fun x : Fin m × Fin n => F (finProdFinEquiv x))]
  exact Equiv.sum_comp finProdFinEquiv F

/-- The sum over the 4096 positions is the sum over the 16 tiles of the sums over the 256 positions of a tile. -/
theorem sum_tiles (F : Fin 4096 → EReal) :
    ∑ n : Fin 16, ∑ j : Fin 256, F ⟨256 * n.val + j.val, by have := n.isLt; have := j.isLt; omega⟩
      = ∑ t : Fin 4096, F t := by
  refine Eq.trans ?_ (sum_fin_mul 16 256 F)
  refine Finset.sum_congr rfl fun n _ => Finset.sum_congr rfl fun j _ => ?_
  congr 1
  exact Fin.ext (show 256 * n.val + j.val = j.val + 256 * n.val by omega)

/-- The one-pass quotient over the 16 tiles is the two-pass softmax average over the 4096 positions: if no score is +∞, some
    score is not −∞, and the values are real, then numerator / denominator after 16 tiles is the sum over the positions of the
    value times exp (score − maximum) / ∑ exp (score − maximum). -/
theorem tiles_div_eq (g φ : Fin 4096 → EReal) (hg : ∀ t, g t ≠ ⊤) (hne : ∃ t, g t ≠ ⊥) (hφ : ∀ t, ∃ r : ℝ, φ t = (r : EReal)) :
    Ideal.div (runA (tile g ⊥) (tile φ 0) 16) (runL (tile g ⊥) 16)
      = ∑ t : Fin 4096, φ t * smax g t := by
  obtain ⟨t1, ht1⟩ := rowMax_attained g hne
  have hle : ∀ n, n < 16 → ∀ j, tile g ⊥ n j ≤ rowMax g := fun n hn j => by
    rw [tile_lt g ⊥ n hn j]
    exact le_rowMax g _
  -- the maximum is attained in tile t1 / 256 at position t1 % 256
  have hatt : ∃ n, n < 16 ∧ ∃ j, tile g ⊥ n j = rowMax g := by
    have h16 : t1.val / 256 < 16 := by have := t1.isLt; omega
    refine ⟨t1.val / 256, h16, ⟨t1.val % 256, Nat.mod_lt _ (by norm_num)⟩, ?_⟩
    rw [tile_lt g ⊥ _ h16, ← ht1]
    congr 1
    exact Fin.ext (Nat.div_add_mod t1.val 256)
  have hf : ∀ n, n < 16 → ∀ j, ∃ r : ℝ, tile φ 0 n j = (r : EReal) := fun n hn j => by
    rw [tile_lt φ 0 n hn j]
    exact hφ _
  rw [run_div_eq 16 (tile g ⊥) (tile φ 0) (rowMax g) (rowMax_real g hg hne) hle hatt hf]
  -- the denominators agree
  have hden : (∑ n' : Fin 16, ∑ j' : Fin 256, Ideal.exp (tile g ⊥ n' j' - rowMax g))
      = ∑ t' : Fin 4096, Ideal.exp (g t' - rowMax g) := by
    rw [← sum_tiles (fun t' => Ideal.exp (g t' - rowMax g))]
    exact Finset.sum_congr rfl fun n _ => Finset.sum_congr rfl fun j _ => by rw [tile_lt g ⊥ _ n.isLt j]
  rw [hden, ← sum_tiles (fun t => φ t * smax g t)]
  refine Finset.sum_congr rfl fun n _ => Finset.sum_congr rfl fun j _ => ?_
  rw [tile_lt g ⊥ _ n.isLt j, tile_lt φ 0 _ n.isLt j]
  rfl

end Cert.Spec

end
-- ==== Proof.KernelInvariant.lean ====
/-
  What the carried values hold after each grid point, by induction over the points. For batch row b = 8 (t / 16) + r, point t has
  seen the tiles 0 … t % 16 of the row: its carried maximum, denominator and numerator are the one-pass softmax's running values
  after t % 16 + 1 tiles of the row's masked scores; its scores block is tile t % 16 of the masked scores; and at a last tile its
  result block is numerator over denominator after all 16 tiles.
-/
import proofs.«144867_j29738353557990_1_alg».proof.Proof.KernelPoints
import proofs.«144867_j29738353557990_1_alg».proof.Proof.KernelBlocks
import proofs.«144867_j29738353557990_1_alg».proof.Proof.KernelStep
import proofs.«144867_j29738353557990_1_alg».proof.Proof.Spec

set_option maxRecDepth 16384

noncomputable section

namespace Cert.KernelIdeal.Inv

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.Payloads OnlineSoftmax

variable (m : (ℓ : Loc nD τ sig) → Buf (Elt Ideal) ℓ) (c : Dev nD)

/-- The arrays as the region finds them: the query (input + bias), the normalized weight row, the features, the mask words. -/
abbrev query : (⟨3, ![32, 1, 512]⟩ : Shape).Idx → EReal := V m c main_v8
abbrev weight : (⟨2, ![1, 512]⟩ : Shape).Idx → EReal := V m c main_v4
abbrev feats : (⟨3, ![32, 4096, 512]⟩ : Shape).Idx → EReal := V m c main_arg1
abbrev maskw : (⟨3, ![32, 4096, 1]⟩ : Shape).Idx → BitVec 32 := V m c main_v9

/-- The masked score of (row b, position p): the sum over the features of tanh (query + feature) · weight where the mask word
    is not zero, −∞ elsewhere. -/
def rscore (b : Fin 32) (p : Fin 4096) : EReal :=
  Scalar.select (IntOp.cmpi .ne (maskw m c (ix3 b p 0)) 0#32)
    (∑ s : Fin 512, Ideal.tanh (query m c (ix3 b 0 s) + feats m c (ix3 b p s)) * weight m c (ix2 0 s)) ⊥

/-- Row b's masked scores, tile by tile. -/
def sT (b : Fin 32) : ℕ → Fin 256 → EReal := Cert.Spec.tile (rscore m c b) ⊥

/-- Row b's features at feature index cc, tile by tile. -/
def fT (b : Fin 32) (cc : Fin 512) : ℕ → Fin 256 → EReal := Cert.Spec.tile (fun p => feats m c (ix3 b p cc)) 0

/-- The body's masked scores at point t are the masked scores at the global row and position. -/
theorem scores_at (t : Fin cfg0.N) (r : Fin 8) (j : Fin 256) :
    k0_pay8 (F := Ideal) (iblk m c 2 t) (iblk m c 0 t) (iblk m c 1 t) (iblk m c 3 t) (ix3 r j 0) = rscore m c (row t r) (pos t j) := by
  refine (pay8_apply (iblk m c 2 t) (iblk m c 0 t) (iblk m c 1 t) (iblk m c 3 t) r j).trans ?_
  unfold Payloads.score rscore
  simp only [blk0 m c t, blk1 m c t, blk2 m c t, blk3 m c t]

/-- Tile t % 16 of the row's masked scores, at position j, is the masked score at the global position. -/
theorem sT_at (t : Fin cfg0.N) (b : Fin 32) (j : Fin 256) : sT m c b (t.val % 16) j = rscore m c b (pos t j) :=
  Cert.Spec.tile_lt _ _ _ (Nat.mod_lt _ (by norm_num)) j

theorem fT_at (t : Fin cfg0.N) (b : Fin 32) (cc : Fin 512) (j : Fin 256) :
    fT m c b cc (t.val % 16) j = V m c main_arg1 (ix3 b (pos t j) cc) :=
  Cert.Spec.tile_lt _ _ _ (Nat.mod_lt _ (by norm_num)) j

/-- One point advances the row's running values by the point's tile. -/
theorem advance (t : Fin cfg0.N) (vm vl : Vec Ideal S8x1x1 .f32) (va : Vec Ideal S8x1x512 .f32) (r : Fin 8)
    (hm : vm (ix3 r 0 0) = runM (sT m c (row t r)) (t.val % 16))
    (hl : vl (ix3 r 0 0) = runL (sT m c (row t r)) (t.val % 16))
    (ha : ∀ cc : Fin 512, va (ix3 r 0 cc) = runA (sT m c (row t r)) (fT m c (row t r) cc) (t.val % 16)) :
    k0_pay3 (F := Ideal) (k0_pay9 (F := Ideal) (iblk m c 2 t) (iblk m c 0 t) (iblk m c 1 t) (iblk m c 3 t) vm) (ix3 r 0 0) = runM (sT m c (row t r)) (t.val % 16 + 1)
    ∧ k0_pay1 (F := Ideal) (k0_pay10 (F := Ideal) (iblk m c 2 t) (iblk m c 0 t) (iblk m c 1 t) (iblk m c 3 t) vm) (k0_pay11 (F := Ideal) (iblk m c 2 t) (iblk m c 0 t) (iblk m c 1 t) (iblk m c 3 t) vm) vl (ix3 r 0 0)
        = runL (sT m c (row t r)) (t.val % 16 + 1)
    ∧ ∀ cc : Fin 512, k0_pay2 (F := Ideal) (iblk m c 2 t) (k0_pay10 (F := Ideal) (iblk m c 2 t) (iblk m c 0 t) (iblk m c 1 t) (iblk m c 3 t) vm) (k0_pay11 (F := Ideal) (iblk m c 2 t) (iblk m c 0 t) (iblk m c 1 t) (iblk m c 3 t) vm) va (ix3 r 0 cc)
        = runA (sT m c (row t r)) (fT m c (row t r) cc) (t.val % 16 + 1) := by
  have hs : ∀ j : Fin 256, k0_pay8 (F := Ideal) (iblk m c 2 t) (iblk m c 0 t) (iblk m c 1 t) (iblk m c 3 t) (ix3 r j 0) = sT m c (row t r) (t.val % 16) j :=
    fun j => (scores_at m c t r j).trans (sT_at m c t (row t r) j).symm
  refine ⟨Step.max_step (iblk m c 2 t) (iblk m c 0 t) (iblk m c 1 t) (iblk m c 3 t) vm _ _ r hs hm,
    Step.den_step (iblk m c 2 t) (iblk m c 0 t) (iblk m c 1 t) (iblk m c 3 t) vm vl _ _ r hs hm hl, fun cc => ?_⟩
  exact Step.num_step (iblk m c 2 t) (iblk m c 0 t) (iblk m c 1 t) (iblk m c 3 t) vm va _ _ r _ cc hs hm (ha cc)
    (fun j => (blk2 m c t r j cc).trans (fT_at m c t (row t r) cc j).symm)

/-- The carried values after point t. -/
def Holds (t : Fin cfg0.N) : Prop := ∀ r : Fin 8,
  (outsAt0 m c t.val t.isLt).2.2.2.1 (ix3 r 0 0) = runM (sT m c (row t r)) (t.val % 16 + 1)
  ∧ (outsAt0 m c t.val t.isLt).2.2.2.2 (ix3 r 0 0) = runL (sT m c (row t r)) (t.val % 16 + 1)
  ∧ ∀ cc : Fin 512, (outsAt0 m c t.val t.isLt).2.2.1 (ix3 r 0 cc) = runA (sT m c (row t r)) (fT m c (row t r) cc) (t.val % 16 + 1)

/-- A first tile: the carried values are reset (−∞, 0, 0: the running values after no tile) and advanced. -/
theorem holds_first (t : Fin cfg0.N) (h0 : t.val % 16 = 0) : Holds m c t := by
  intro r
  have h1 : ¬t.val % 16 = 15 := by omega
  obtain ⟨-, pn, pm, pd⟩ := Points.first m c t h0 h1
  rw [pn, pm, pd]
  refine advance m c t (k0_pay6 (F := Ideal)) (k0_pay7 (F := Ideal)) (k0_pay5 (F := Ideal)) r ?_ ?_ ?_
  · rw [h0]; exact pay6_apply _
  · rw [h0]; exact pay7_apply _
  · intro cc; rw [h0]; exact pay5_apply _

/-- A later tile: the carried values of the point before, advanced. -/
theorem holds_next (n : ℕ) (hn : n + 1 < cfg0.N) (h0 : ¬(n + 1) % 16 = 0) (ih : Holds m c ⟨n, Nat.lt_of_succ_lt hn⟩) :
    Holds m c ⟨n + 1, hn⟩ := by
  intro r
  have er : row ⟨n, Nat.lt_of_succ_lt hn⟩ r = row ⟨n + 1, hn⟩ r :=
    Fin.ext (by show 8 * (n / 16) + r.val = 8 * ((n + 1) / 16) + r.val; omega)
  have ek : n % 16 + 1 = (n + 1) % 16 := by omega
  obtain ⟨im, il, ia⟩ := ih r
  rw [er] at im il ia
  simp only [ek] at im il ia
  by_cases h1 : (n + 1) % 16 = 15
  · obtain ⟨-, -, pn, pm, pd⟩ := Points.last m c ⟨n + 1, hn⟩ h0 h1
    rw [pn, pm, pd]
    exact advance m c ⟨n + 1, hn⟩ _ _ _ r im il ia
  · obtain ⟨-, pn, pm, pd⟩ := Points.middle m c ⟨n + 1, hn⟩ h0 h1
    rw [pn, pm, pd]
    exact advance m c ⟨n + 1, hn⟩ _ _ _ r im il ia

/-- The carried values after every point. -/
theorem holds : ∀ (n : ℕ) (hn : n < cfg0.N), Holds m c ⟨n, hn⟩
  | 0, hn => holds_first m c ⟨0, hn⟩ rfl
  | n + 1, hn => by
    by_cases h0 : (n + 1) % 16 = 0
    · exact holds_first m c ⟨n + 1, hn⟩ h0
    · exact holds_next m c n hn h0 (holds n (Nat.lt_of_succ_lt hn))

/-- The scores block of every point. -/
theorem scores_out (t : Fin cfg0.N) (r : Fin 8) (j : Fin 256) :
    (outsAt0 m c t.val t.isLt).2.1 (ix3 r j 0) = rscore m c (row t r) (pos t j) := by
  by_cases h0 : t.val % 16 = 0
  · have h1 : ¬t.val % 16 = 15 := by omega
    rw [(Points.first m c t h0 h1).1]; exact scores_at m c t r j
  · by_cases h1 : t.val % 16 = 15
    · rw [(Points.last m c t h0 h1).2.1]; exact scores_at m c t r j
    · rw [(Points.middle m c t h0 h1).1]; exact scores_at m c t r j

/-- The result block of a last tile: numerator over denominator after the row's 16 tiles. -/
theorem result_out (t : Fin cfg0.N) (h1 : t.val % 16 = 15) (r : Fin 8) (cc : Fin 512) :
    (outsAt0 m c t.val t.isLt).1 (ix3 r 0 cc)
      = Ideal.div (runA (sT m c (row t r)) (fT m c (row t r) cc) 16) (runL (sT m c (row t r)) 16) := by
  have h0 : ¬t.val % 16 = 0 := by omega
  obtain ⟨p4, -, pn, -, pd⟩ := Points.last m c t h0 h1
  obtain ⟨-, hl, ha⟩ := holds m c t.val t.isLt r
  rw [p4, pay4_apply, ← pn, ← pd, ha cc, hl, h1]

end Cert.KernelIdeal.Inv

end
-- ==== Proof.KernelFinal.lean ====
/-
  The two arrays the region writes, after the run, as whole-array functions. The scores array holds at (b, p) the masked score of
  row b at position p: point t writes back the block of rows 8 (t / 16) … and positions 256 (t % 16) …, and the 64 blocks tile the
  array. The result array holds at (b, 0, cc) the one-pass quotient of row b at feature cc: it is written back at the last tile of
  each batch tile only (t % 16 = 15), and those four blocks tile the array.
-/
import proofs.«144867_j29738353557990_1_alg».proof.Proof.KernelInvariant

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.Inv OnlineSoftmax

variable (m : (ℓ : Loc nD τ sig) → Buf (Elt Ideal) ℓ) (c : Dev nD)

/-- The scores array after the run. -/
def scoresArr : S32x4096x1.Idx → EReal := fun i => rscore m c (i 0) (i 1)

/-- The result array after the run. -/
def resultArr : S32x1x512.Idx → EReal := fun i =>
  Ideal.div (runA (sT m c (i 0)) (fT m c (i 0) (i 2)) 16) (runL (sT m c (i 0)) 16)

/-- Where a scores block's entry sits in the array. -/
theorem emb5 (t : Fin cfg0.N) (r : Fin 8) (j : Fin 256) :
    ((cfg0.win 5).blk t).view.emb (ix3 r j 0) = ix3 (row t r) (pos t j) 0 := by
  obtain ⟨-, -, -, -, -, -, -, -, -, -, -, -, -, -, e0, e1, e2⟩ := idx_facts t
  funext a; apply Fin.ext
  match a with
  | ⟨0, _⟩ => show win0_5.index t (0 : Fin 3) * 8 + 1 * r.val = 8 * (t.val / 16) + r.val; omega
  | ⟨1, _⟩ => show win0_5.index t (1 : Fin 3) * 256 + 1 * j.val = 256 * (t.val % 16) + j.val; omega
  | ⟨2, _⟩ => show win0_5.index t (2 : Fin 3) * 1 + 1 * 0 = 0; omega

/-- Where a result block's entry sits in the array. -/
theorem emb4 (t : Fin cfg0.N) (r : Fin 8) (cc : Fin 512) :
    ((cfg0.win 4).blk t).view.emb (ix3 r 0 cc) = ix3 (row t r) 0 cc := by
  obtain ⟨-, -, -, -, -, -, -, -, -, -, -, e0, e1, e2, -⟩ := idx_facts t
  funext a; apply Fin.ext
  match a with
  | ⟨0, _⟩ => show win0_4.index t (0 : Fin 3) * 8 + 1 * r.val = 8 * (t.val / 16) + r.val; omega
  | ⟨1, _⟩ => show win0_4.index t (1 : Fin 3) * 1 + 1 * 0 = 0; omega
  | ⟨2, _⟩ => show win0_4.index t (2 : Fin 3) * 512 + 1 * cc.val = cc.val; omega

/-- What point t writes back into the scores array is block t of the masked scores. -/
theorem flushed5_eq (t : Fin cfg0.N) :
    (dats m 0 c).flushed 5 t = ((cfg0.win 5).blk t).view.read (Elt Ideal) (scoresArr m c) := by
  show (cfg0.win 5).cut (grid0.coords t) ((dats m 0 c).after 5 t) = _
  rw [after0_5]
  funext y
  obtain ⟨r, j, rfl⟩ : ∃ (r : Fin 8) (j : Fin 256), y = ix3 r j 0 := ⟨y 0, y 1, funext fun a => by
    match a with
    | ⟨0, _⟩ => rfl
    | ⟨1, _⟩ => rfl
    | ⟨2, _⟩ => exact Fin.ext (by show (y 2).val = 0; have : (y 2).val < 1 := (y 2).isLt; omega)⟩
  show (outsAt0 m c t.val t.isLt).2.1 (ix3 r j 0) = scoresArr m c (((cfg0.win 5).blk t).view.emb (ix3 r j 0))
  rw [scores_out m c t r j, emb5 t r j]
  rfl

/-- What a last tile writes back into the result array is its block of the one-pass quotients. -/
theorem flushed4_eq (t : Fin cfg0.N) (hf : (cfg0.win 4).flush t = true) :
    (dats m 0 c).flushed 4 t = ((cfg0.win 4).blk t).view.read (Elt Ideal) (resultArr m c) := by
  have h1 : t.val % 16 = 15 := (flush0_4 t).mp hf
  show (cfg0.win 4).cut (grid0.coords t) ((dats m 0 c).after 4 t) = _
  rw [after0_4]
  funext y
  obtain ⟨r, cc, rfl⟩ : ∃ (r : Fin 8) (cc : Fin 512), y = ix3 r 0 cc := ⟨y 0, y 2, funext fun a => by
    match a with
    | ⟨0, _⟩ => rfl
    | ⟨1, _⟩ => exact Fin.ext (by show (y 1).val = 0; have : (y 1).val < 1 := (y 1).isLt; omega)
    | ⟨2, _⟩ => rfl⟩
  show (outsAt0 m c t.val t.isLt).1 (ix3 r 0 cc) = resultArr m c (((cfg0.win 4).blk t).view.emb (ix3 r 0 cc))
  rw [result_out m c t h1 r cc, emb4 t r cc]
  rfl

/-- An index of the scores array is in point t's block iff each coordinate is in the block's range. -/
theorem mem_blk5 (t : Fin cfg0.N) (i : S32x4096x1.Idx) :
    i ∈ ((cfg0.win 5).blk t).view.set ↔ ∀ a : Fin 3, win0_5.index t a * S8x256x1.size a ≤ (i a).val ∧ (i a).val < win0_5.index t a * S8x256x1.size a + S8x256x1.size a := by
  show i ∈ ((View.whole main_v10_1).slice (win0_5.rect t)).set ↔ _
  rw [View.set_slice_whole, Rect.mem_set_unit]
  exact Iff.rfl

theorem mem_blk4 (t : Fin cfg0.N) (i : S32x1x512.Idx) :
    i ∈ ((cfg0.win 4).blk t).view.set ↔ ∀ a : Fin 3, win0_4.index t a * S8x1x512.size a ≤ (i a).val ∧ (i a).val < win0_4.index t a * S8x1x512.size a + S8x1x512.size a := by
  show i ∈ ((View.whole main_v10_0).slice (win0_4.rect t)).set ↔ _
  rw [View.set_slice_whole, Rect.mem_set_unit]
  exact Iff.rfl

/-- Every entry of the scores array is in the block of the point of its batch tile and position tile. -/
theorem cover5 (i : S32x4096x1.Idx) : ∃ t : Fin cfg0.N, (cfg0.win 5).flush t = true ∧ i ∈ ((cfg0.win 5).blk t).view.set := by
  have h0 : (i 0).val < 32 := (i 0).isLt
  have h1 : (i 1).val < 4096 := (i 1).isLt
  have h2 : (i 2).val < 1 := (i 2).isLt
  have hN : cfg0.N = 64 := N_0
  refine ⟨⟨16 * ((i 0).val / 8) + (i 1).val / 256, by omega⟩, flush0_5 _, (mem_blk5 _ i).mpr fun a => ?_⟩
  obtain ⟨-, -, -, -, -, -, -, -, -, -, -, -, -, -, e0, e1, e2⟩ := idx_facts ⟨16 * ((i 0).val / 8) + (i 1).val / 256, by omega⟩
  simp only at e0 e1 e2
  match a with
  | ⟨0, _⟩ => show win0_5.index _ (0 : Fin 3) * 8 ≤ (i 0).val ∧ (i 0).val < win0_5.index _ (0 : Fin 3) * 8 + 8; omega
  | ⟨1, _⟩ => show win0_5.index _ (1 : Fin 3) * 256 ≤ (i 1).val ∧ (i 1).val < win0_5.index _ (1 : Fin 3) * 256 + 256; omega
  | ⟨2, _⟩ => show win0_5.index _ (2 : Fin 3) * 1 ≤ (i 2).val ∧ (i 2).val < win0_5.index _ (2 : Fin 3) * 1 + 1; omega

/-- Every entry of the result array is in the block of the last tile of its batch tile. -/
theorem cover4 (i : S32x1x512.Idx) : ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 512 := (i 2).isLt
  have hN : cfg0.N = 64 := N_0
  refine ⟨⟨16 * ((i 0).val / 8) + 15, by omega⟩, (flush0_4 _).mpr (by show (16 * ((i 0).val / 8) + 15) % 16 = 15; omega), (mem_blk4 _ i).mpr fun a => ?_⟩
  obtain ⟨-, -, -, -, -, -, -, -, -, -, -, e0, e1, e2, -⟩ := idx_facts ⟨16 * ((i 0).val / 8) + 15, by omega⟩
  simp only at e0 e1 e2
  match a with
  | ⟨0, _⟩ => show win0_4.index _ (0 : Fin 3) * 8 ≤ (i 0).val ∧ (i 0).val < win0_4.index _ (0 : Fin 3) * 8 + 8; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 512 ≤ (i 2).val ∧ (i 2).val < win0_4.index _ (2 : Fin 3) * 512 + 512; omega

/-- The scores array after the run. -/
theorem final5 : (dats m 0 c).arrAt 5 cfg0.N = scoresArr m c :=
  (dats m 0 c).arrAt_eq_of_cover 5 (scoresArr m c) (fun t _ => flushed5_eq m c t) cover5

/-- The result array after the run. -/
theorem final4 : (dats m 0 c).arrAt 4 cfg0.N = resultArr m c :=
  (dats m 0 c).arrAt_eq_of_cover 4 (resultArr m c) (fun t hf => flushed4_eq m c t hf) cover4

end Cert.KernelIdeal.Final

end
-- ==== Proof.LibReduceAny.lean ====
/-
  A printed predicate's `jnp.any`, read back. `jnp.any(p, axis)` prints as a one-operand `stablehlo.reduce` of the
  `i1` array `p` by `or`, from the constant 0. A fold by `or` that came out 1 either started at 1 or met a 1; so when
  the initial word is not 1 and the result is 1 at `j`, some element of `p` among those that reduce into `j` is 1.
  (The companion, for `or`, of the library's reading of `jnp.all`.)
-/
import Idealize.ShloMosaic.Lib.ReduceAll

namespace Idealize.ShloMosaic

namespace IntOp

/-- A left fold by `or` over `i1` words that came out 1 started at 1 or met a 1. -/
theorem foldl_ori_eq_one {ι : Type} (f : ι → BitVec 1) :
    ∀ (l : List ι) (init : BitVec 1), l.foldl (fun r n => ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

end IntOp

namespace Host

variable {s t u : Shape} {axes : List (Fin s.rank)}

/-- A `stablehlo.reduce` by `or`, from an initial word that is not 1, that is 1 at `j` met a 1 at some operand index
    that reduces into `j`. -/
theorem reduce_ori_eq_one (x : s.Idx → BitVec 1) (init : u.Idx → BitVec 1) (h : s.ReducesTo axes t) (hu : 0 < u.numel)
    (j : t.Idx) (hinit : init (Shape.Idx.first hu) ≠ 1#1) (e : Host.reduce IntOp.ori x init h hu j = 1#1) :
    ∃ i : s.Idx, h.drop i = j ∧ x i = 1#1 := by
  rw [Host.reduce_eq_foldl] at e
  rcases IntOp.foldl_ori_eq_one x _ _ e with h1 | ⟨n, hn, hf⟩
  · exact absurd h1 hinit
  · rw [List.mem_filter] at hn
    exact ⟨n, by simpa using hn.2, hf⟩

end Host

end Idealize.ShloMosaic
-- ==== Proof.PreFacts.lean ====
/-
  What the precondition says of the argument arrays, read back from the printed predicate: every float entry is a real number;
  every row of the mask has a true entry; and the Euclidean norm of the weight row — the divisor of the normalized weight, spelled
  as the square root of the sum of squares — is positive.
-/
import proofs.«144867_j29738353557990_1_alg».proof.Pre_finite_inputs
import proofs.«144867_j29738353557990_1_alg».proof.Proof.LibReduceAny
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs Cert.Pre_finite_inputs.Facts

variable [Cert.Pre_finite_inputs.Facts]

/-- A rank-0 array has one index. -/
instance subsingleton_idx0 : Subsingleton S_.Idx := ⟨fun a b => funext fun d => d.elim0⟩

/-- An extended real whose absolute value `max x (-x)` is below `+∞` is a real number: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The pattern of `+∞` denotes `⊤`. -/
theorem ofBits_inf_f32 : Ideal.ofBits .f32 0x7F800000#32 = ⊤ := by simp [Ideal.ofBits, Ideal.ieee]

/-- An element of `|x| < +∞` that is 1: that entry of `x` is a real number. -/
theorem finite_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  apply real_of_abs_lt_top
  simp only [cmpf, Host.absf, broadcastInDim, constant, Ideal.ofBits_def, ofBits_inf_f32] at h
  by_contra hn
  have hz : Ideal.cmp .olt (max (x i) (-x i)) ⊤ = 0#1 := by
    simp only [Ideal.cmp, hn, decide_false]; rfl
  have h' : Ideal.cmp .olt (max (x i) (-x i)) ⊤ = 1#1 := h
  rw [hz] at h'
  exact absurd h' (by decide)

/-- An element of `y > 0` that is 1: that entry of `y` is positive. -/
theorem pos_of_cmp {s : Shape} (y : FVec Ideal s .f32) (hb : S_.BroadcastsInDim s (![] : Fin 0 → Fin s.rank)) (i : s.Idx)
    (h : cmpf .ogt y (broadcastInDim s ![] hb (constant S_ .f32 0x00000000#32)) i = 1#1) :
    (0 : EReal) < y i := by
  simp only [cmpf, broadcastInDim, constant, Ideal.ofBits_def] at h
  have hz : Ideal.ofBits .f32 0x00000000#32 = 0 := by simp [Ideal.ofBits, Ideal.ieee]
  rw [hz] at h
  by_contra hn
  have hc : Ideal.cmp .ogt (y i) 0 = 0#1 := by
    simp only [Ideal.cmp, hn, decide_false]; rfl
  have h' : Ideal.cmp .ogt (y i) 0 = 1#1 := h
  rw [hc] at h'
  exact absurd h' (by decide)

/-- The conjunction of two rank-0 `i1` arrays is 1 at the one index only when both are. -/
theorem andi0 (c d : IVec S_ 1) (h : andi c d ValueIdx.ix0 = 1#1) : c ValueIdx.ix0 = 1#1 ∧ d ValueIdx.ix0 = 1#1 :=
  IntOp.andi_eq_one.1 h

/-- The `or` over axis 1 of the mask, from 0, is 1 at row `b`: the row has a true entry. An index that reduces into
    `(b, 0)` has row coordinate `b` (axis 0 is the first kept axis) and last coordinate 0 (that axis has size one). -/
theorem row_has_true (a2 : IVec S32x4096x1 1) (b : Fin 32)
    (hb : Host.reduce IntOp.ori a2 (constantI S_ 1 0#1) reducesTo_S32x4096x1_S32x1_d1 h_S_ (ix2 b 0) = 1#1) :
    ∃ t : Fin 4096, a2 (ix3 b t 0) = 1#1 := by
  obtain ⟨i, hdrop, hi⟩ := Host.reduce_ori_eq_one a2 (constantI S_ 1 0#1) reducesTo_S32x4096x1_S32x1_d1 h_S_ (ix2 b 0)
    (by unfold constantI; decide) hb
  obtain ⟨p, q, r, rfl⟩ : ∃ (p : Fin 32) (q : Fin 4096) (r : Fin 1), i = ix3 p q r := ⟨_, _, _, eq_ix3 i⟩
  have h0 : ((reducesTo_S32x4096x1_S32x1_d1.drop (ix3 p q r)) 0 : Nat) = (ix3 p q r) 0 :=
    Shape.ReducesTo.drop_apply_val_of_eq reducesTo_S32x4096x1_S32x1_d1 (ix3 p q r) 0 0
  rw [hdrop] at h0
  have hp : p = b := Fin.ext h0.symm
  have hr : r = 0 := Subsingleton.elim _ _
  subst hp hr
  exact ⟨q, hi⟩

/-- The norm the precondition speaks of: `sqrt (sum over the row of W * W)`, as a [1, 1] array. -/
def nrm (a3 : FVec Ideal S1x512 .f32) : FVec Ideal S1x1 .f32 :=
  Host.sqrt (broadcastInDim S1x1 ![0] bcast_S1_S1x1_0
    ((fun x v => Host.reduceAdd x v reducesTo_S1x512_S1_d1 h_S_) (mulf a3 a3) (constant S_ .f32 0x00000000#32)))

/-- The precondition, read back. -/
theorem decode (a0 : FVec Ideal S32x512 .f32) (a1 : FVec Ideal S32x4096x512 .f32) (a2 : IVec S32x4096x1 1)
    (a3 : FVec Ideal S1x512 .f32) (a4 : FVec Ideal S1x1 .f32) (a5 : FVec Ideal S512 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal))
      ∧ (∀ b : Fin 32, ∃ t : Fin 4096, a2 (ix3 b t 0) = 1#1)
      ∧ (0 : EReal) < nrm a3 (ix2 0 0) := by
  -- The result at its one index is a conjunction of seven words; each is 1.
  have h0 := congrFun h ValueIdx.ix0
  dsimp only [Cert.Pre_finite_inputs.fn, fn_part1, fn_part2] at h0
  obtain ⟨h26, h33⟩ := andi0 _ _ h0
  obtain ⟨h23, h25⟩ := andi0 _ _ h26
  obtain ⟨h18, h22⟩ := andi0 _ _ h23
  obtain ⟨h13, h17⟩ := andi0 _ _ h18
  obtain ⟨h8, h12⟩ := andi0 _ _ h13
  obtain ⟨h3, h7⟩ := andi0 _ _ h8
  clear h0 h26 h23 h18 h13 h8
  -- Each word is an `and` over all indices of a comparison array, so every element of that array is 1.
  refine ⟨fun i => ?_, fun i => ?_, fun i => ?_, fun i => ?_, fun i => ?_, fun b => ?_, ?_⟩
  · exact finite_of_cmp a0 _ i (Host.reduce_andi_all _ _ _ _ _ h3 i)
  · exact finite_of_cmp a1 _ i (Host.reduce_andi_all _ _ _ _ _ h7 i)
  · exact finite_of_cmp a3 _ i (Host.reduce_andi_all _ _ _ _ _ h12 i)
  · exact finite_of_cmp a4 _ i (Host.reduce_andi_all _ _ _ _ _ h17 i)
  · exact finite_of_cmp a5 _ i (Host.reduce_andi_all _ _ _ _ _ h22 i)
  · exact row_has_true a2 b (Host.reduce_andi_all _ _ _ _ _ h25 (ix2 b 0))
  · exact pos_of_cmp _ _ _ (Host.reduce_andi_all _ _ _ _ _ h33 (ix2 0 0))

end Cert.PreFacts

end
-- ==== Proof.KernelHost.lean ====
/-
  The host operations around the region. Before it: the query array is input + bias, broadcast over a unit position axis; the
  weight row is scale · W divided by the norm of W; the mask words are the mask bits widened to 32 bits; the features are the
  argument itself. After it: the first result is the result array with its unit axis dropped; the second is the softmax along the
  positions of the scores array (a maximum from −∞, a subtraction, an exponential, a sum, a quotient).
-/
import proofs.«144867_j29738353557990_1_alg».proof.Proof.KernelFinal
import Idealize.ShloMosaic.Lib.StableHlo.Run
import Idealize.ShloMosaic.Lib.Pipeline.FrameSuffix
import proofs.«144867_j29738353557990_1_alg».proof.Proof.PreFacts
import proofs.«144867_j29738353557990_1_alg».proof.Proof.Gen.Pre_finite_inputs

set_option maxRecDepth 16384

noncomputable section

namespace Cert.KernelIdeal.HostSide

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Blocks Cert.KernelIdeal.Inv Cert.KernelIdeal.Final OnlineSoftmax

variable (m : (ℓ : Loc nD τ sig) → Buf (Elt Ideal) ℓ) (c : Dev nD)

/-- The six argument arrays, over literal shapes. -/
abbrev A0 : (⟨2, ![32, 512]⟩ : Shape).Idx → EReal := m ((c.tc : Thread nD τ).loc main_arg0)
abbrev A1 : (⟨3, ![32, 4096, 512]⟩ : Shape).Idx → EReal := m ((c.tc : Thread nD τ).loc main_arg1)
abbrev A2 : (⟨3, ![32, 4096, 1]⟩ : Shape).Idx → BitVec 1 := m ((c.tc : Thread nD τ).loc main_arg2)
abbrev A3 : (⟨2, ![1, 512]⟩ : Shape).Idx → EReal := m ((c.tc : Thread nD τ).loc main_arg3)
abbrev A4 : (⟨2, ![1, 1]⟩ : Shape).Idx → EReal := m ((c.tc : Thread nD τ).loc main_arg4)
abbrev A5 : (⟨1, ![512]⟩ : Shape).Idx → EReal := m ((c.tc : Thread nD τ).loc main_arg5)

/-- The softmax along the positions, as the host computes it from a scores array. -/
def tail (X : FVec Ideal S32x4096x1 .f32) : FVec Ideal S32x4096x1 .f32 :=
  Host.divf (F := Ideal)
    (Host.exp (F := Ideal) (subf X (broadcastInDim S32x4096x1 ![0, 1, 2] bcast_S32x1x1_S32x4096x1_0_1_2
      (broadcastInDim S32x1x1 ![0, 2] bcast_S32x1_S32x1x1_0_2
        (maximumf (broadcastInDim S32x1 ![] bcast_S_S32x1 (constant (F := Ideal) S_ .f32 0xFF800000#32))
          (Host.reduce FloatOps.maximumf X (constant (F := Ideal) S_ .f32 0xFF800000#32) reducesTo_S32x4096x1_S32x1_d1 h_S_))))))
    (broadcastInDim S32x4096x1 ![0, 1, 2] bcast_S32x1x1_S32x4096x1_0_1_2
      (broadcastInDim S32x1x1 ![0, 2] bcast_S32x1_S32x1x1_0_2
        (Host.reduceAdd (F := Ideal)
          (Host.exp (F := Ideal) (subf X (broadcastInDim S32x4096x1 ![0, 1, 2] bcast_S32x1x1_S32x4096x1_0_1_2
            (broadcastInDim S32x1x1 ![0, 2] bcast_S32x1_S32x1x1_0_2
              (maximumf (broadcastInDim S32x1 ![] bcast_S_S32x1 (constant (F := Ideal) S_ .f32 0xFF800000#32))
                (Host.reduce FloatOps.maximumf X (constant (F := Ideal) S_ .f32 0xFF800000#32) reducesTo_S32x4096x1_S32x1_d1 h_S_))))))
          (constant (F := Ideal) S_ .f32 0x00000000#32) reducesTo_S32x4096x1_S32x1_d1 h_S_)))

/-- The query array: input + bias. -/
theorem query_eq : query m c = broadcastInDim S32x1x512 ![0, 2] bcast_S32x512_S32x1x512_0_2
    (addf (F := Ideal) (φ := .f32) (A0 m c) (broadcastInDim S32x512 ![0, 1] bcast_S1x512_S32x512_0_1 (broadcastInDim S1x512 ![1] bcast_S512_S1x512_1 (A5 m c)))) := by
  dsimp only [query, Gen.V, Gen.V0]
  simp only [Gen.hostOps0, Gen.hostOps0_1, List.flatten_cons, List.flatten_nil, List.append_nil, List.cons_append, List.nil_append]
  after_results

/-- The norm of the weight row, as the region finds it: the square root of the sum of squares. -/
theorem norm_eq : (V m c main_v0 : S1x1.Idx → EReal) = Cert.PreFacts.nrm (A3 m c) := by
  dsimp only [Gen.V, Gen.V0]
  simp only [Gen.hostOps0, Gen.hostOps0_1, List.flatten_cons, List.flatten_nil, List.append_nil, List.cons_append, List.nil_append]
  after_results
  rfl

/-- The weight row: scale · W over the norm. -/
theorem weight_eq : weight m c = Host.divf (F := Ideal)
    (mulf (broadcastInDim S1x512 ![0, 1] bcast_S1x1_S1x512_0_1 (A4 m c)) (A3 m c))
    (broadcastInDim S1x512 ![0, 1] bcast_S1x1_S1x512_0_1 (Cert.PreFacts.nrm (A3 m c))) := by
  dsimp only [weight, Gen.V, Gen.V0]
  simp only [Gen.hostOps0, Gen.hostOps0_1, List.flatten_cons, List.flatten_nil, List.append_nil, List.cons_append, List.nil_append]
  after_results
  rfl

/-- The mask words: the mask bits widened. -/
theorem maskw_eq : maskw m c = extui 32 (A2 m c) natLt_1_32 := by
  dsimp only [maskw, Gen.V, Gen.V0]
  simp only [Gen.hostOps0, Gen.hostOps0_1, List.flatten_cons, List.flatten_nil, List.append_nil, List.cons_append, List.nil_append]
  after_results

/-- The features are the argument. -/
theorem feats_eq : feats m c = A1 m c := V_main_arg1 m c

/-- The first result: the result array with its unit axis dropped. -/
theorem tail_context : (Pipeline.afterTail₀ cfgs (dats m) 0 (V0 m) [hostOps1] c main_v11 : S32x512.Idx → EReal)
    = shapeCast S32x512 (resultArr m c) shapeCasts_S32x1x512_S32x512 := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.devRef .tc main_v10_0)
        = resultArr m c from (Pipeline.withArrays_arr spec0 launch0.win.arr_inj c _ _ 4).trans (final4 m c)]
  rfl

/-- The second result: the softmax along the positions of the scores array. -/
theorem tail_weights : (Pipeline.afterTail₀ cfgs (dats m) 0 (V0 m) [hostOps1] c main_v22 : S32x4096x1.Idx → EReal)
    = tail (scoresArr m c) := by
  unfold Pipeline.afterTail₀
  show StableHlo.after hostOps1 _ (Proc.devRef .tc main_v22) = _
  after_results
  rw [show Pipeline.withArrays (cfgs 0).spec c (V0 m c) (fun w => (dats m 0 c).arrAt w (cfgs 0).N) (Proc.devRef .tc main_v10_1)
        = scoresArr m c from (Pipeline.withArrays_arr spec0 launch0.win.arr_inj c _ _ 5).trans (final5 m c)]
  rfl

end Cert.KernelIdeal.HostSide

end
-- ==== Proof.KernelRun.lean ====
/-
  The idealized kernel's run, with its two results named: every weakly fair execution terminates with the first result at the
  result array (unit axis dropped), the second at the softmax of the scores array along the positions, and the arguments unchanged.
-/
import proofs.«144867_j29738353557990_1_alg».proof.Proof.KernelHost

set_option maxRecDepth 16384

noncomputable section

namespace Cert.KernelIdeal.RunValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Final Cert.KernelIdeal.HostSide

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = shapeCast S32x512 (resultArr m c) shapeCasts_S32x1x512_S32x512
      ∧ r.2.mem ((c.tc : Thread nD τ).loc main_v22) = tail (scoresArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v11 (Pipeline.mem_restRefs_of main_v11 (by decide) (by decide))).trans (tail_context m c),
      ((h c).2 main_v22 (Pipeline.mem_restRefs_of main_v22 (by decide) (by decide))).trans (tail_weights m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.RunValue

end
-- ==== Proof.RefValue.lean ====
/-
  The reference, read at an index. Its masked scores are the specification's (its sum input + feature + bias regrouped as
  input + bias + feature: addition of extended reals is commutative and associative); its weights are the two-pass softmax of
  the masked scores along the positions; its context at (row b, feature c) is the sum over the positions of the feature times
  the weight.
-/
import proofs.«144867_j29738353557990_1_alg».proof.Proof.Gen.ReferenceIdeal.Read
import proofs.«144867_j29738353557990_1_alg».proof.Proof.Spec

noncomputable section

namespace Cert.ReferenceIdeal.RefValue

open Idealize.ShloMosaic Idealize.ShloMosaic.ValueIdx Cert.ReferenceIdeal Cert.ReferenceIdeal.Gen Cert.ReferenceIdeal.Read

variable [Cert.ReferenceIdeal.Facts]

variable (x0 : (⟨S32x512, .f32⟩ : BufTy).Contents (Elt Ideal)) (x1 : (⟨S32x4096x512, .f32⟩ : BufTy).Contents (Elt Ideal))
  (x2 : (⟨S32x4096x1, .i1⟩ : BufTy).Contents (Elt Ideal)) (x3 : (⟨S1x512, .f32⟩ : BufTy).Contents (Elt Ideal))
  (x4 : (⟨S1x1, .f32⟩ : BufTy).Contents (Elt Ideal)) (x5 : (⟨S512, .f32⟩ : BufTy).Contents (Elt Ideal))

/-- The norm the reference divides by: the value of its call of @norm, at its one index. -/
def ν : EReal := val_main_v0 (F := Ideal) x3 (ix2 0 0)

/-- The two broadcasts of the weight's numerator and divisor read the one element (0, 0). -/
theorem e_idx1 (s : Fin 512) : idx_main_v1 (ix2 (0 : Fin 1) s) = ix2 0 0 :=
  funext fun a => Fin.ext (by match a with | ⟨0, _⟩ => rfl | ⟨1, _⟩ => rfl)
theorem e_idx3 (s : Fin 512) : idx_main_v3 (ix2 (0 : Fin 1) s) = ix2 0 0 :=
  funext fun a => Fin.ext (by match a with | ⟨0, _⟩ => rfl | ⟨1, _⟩ => rfl)

/-- The reference's normalized weight at feature s is the specification's: scale · W / ν. -/
theorem wgt_apply (s : Fin 512) : val_main_v4 (F := Ideal) x3 x4 (ix2 0 s) = Cert.Spec.wgt (ν x3) x3 x4 s := by
  rw [val_main_v4_apply, val_main_v2_apply, val_main_v1_apply, val_main_v3_apply, e_idx1, e_idx3]
  rfl

/-- The contraction at (b, t, 0) reads the left operand at (b, t, k) and the right at (0, k). -/
theorem e_lidx (b : Fin 32) (t : Fin 4096) (k : Fin 512) : lidx_main_v12 (ix3 b t (0 : Fin 1)) k = ix3 b t k :=
  funext fun a => Fin.ext (by match a with | ⟨0, _⟩ => rfl | ⟨1, _⟩ => rfl | ⟨2, _⟩ => rfl)
theorem e_ridx (b : Fin 32) (t : Fin 4096) (k : Fin 512) : ridx_main_v12 (ix3 b t (0 : Fin 1)) k = ix2 0 k :=
  funext fun a => Fin.ext (by match a with | ⟨0, _⟩ => rfl | ⟨1, _⟩ => rfl)
/-- The broadcast input at (b, t, k) is the input at (b, k); the broadcast bias there is the bias at k. -/
theorem e_idx56 (b : Fin 32) (t : Fin 4096) (k : Fin 512) : idx_main_v5 (idx_main_v6 (ix3 b t k)) = ix2 b k :=
  funext fun a => Fin.ext (by match a with | ⟨0, _⟩ => rfl | ⟨1, _⟩ => rfl)
theorem e_idx89 (b : Fin 32) (t : Fin 4096) (k : Fin 512) : idx_main_v8 (idx_main_v9 (ix3 b t k)) = ix1 k :=
  funext fun a => Fin.ext (by match a with | ⟨0, _⟩ => rfl)

/-- The reference's tanh term: (input + feature) + bias regrouped as (input + bias) + feature. -/
theorem tanh_apply (b : Fin 32) (t : Fin 4096) (k : Fin 512) :
    val_main_v11 (F := Ideal) x0 x1 x5 (ix3 b t k) = Ideal.tanh (x0 (ix2 b k) + x5 (ix1 k) + x1 (ix3 b t k)) := by
  rw [val_main_v11_apply, val_main_v10_apply, val_main_v7_apply, val_main_v6_apply, val_main_v5_apply, val_main_v9_apply,
    val_main_v8_apply, e_idx56, e_idx89]
  simp only [Ideal.hostUnary_tanh_def, Ideal.addf_def]
  rw [add_right_comm]

/-- The pattern of −∞ denotes `⊥`. -/
theorem ofBits_ninf : FloatOps.ofBits (F := Ideal) .f32 0xFF800000#32 = (⊥ : EReal) := by
  simp [Ideal.ofBits, Ideal.ieee]

/-- The reference's masked scores are the specification's. -/
theorem scores_apply (b : Fin 32) (t : Fin 4096) :
    val_main_v13 (F := Ideal) x0 x1 x2 x3 x4 x5 (ix3 b t 0) = Cert.Spec.mscore (ν x3) x0 x1 x2 x3 x4 x5 b t := by
  rw [val_main_v13_apply, val_main_v12_apply, val_main_call1_v0_apply, val_main_cst_apply]
  simp only [e_lidx, e_ridx, tanh_apply, wgt_apply]
  rw [ofBits_ninf]
  rfl

/-- The row maximum and the denominator, broadcast back along the positions, are read at (b, 0); the sum over the
    positions at (b, 0) reads the operand at (b, k, 0). -/
theorem e_idx1718 (b : Fin 32) (t : Fin 4096) : idx_main_v17 (idx_main_v18 (ix3 b t (0 : Fin 1))) = ix2 b 0 :=
  funext fun a => Fin.ext (by match a with | ⟨0, _⟩ => rfl | ⟨1, _⟩ => rfl)
theorem e_idx2223 (b : Fin 32) (t : Fin 4096) : idx_main_v22 (idx_main_v23 (ix3 b t (0 : Fin 1))) = ix2 b 0 :=
  funext fun a => Fin.ext (by match a with | ⟨0, _⟩ => rfl | ⟨1, _⟩ => rfl)
theorem e_idx21 (b : Fin 32) (k : Fin 4096) : idx_main_v21 (ix2 b (0 : Fin 1)) k = ix3 b k 0 :=
  funext fun a => Fin.ext (by match a with | ⟨0, _⟩ => rfl | ⟨1, _⟩ => rfl | ⟨2, _⟩ => rfl)

/-- The maximum over the positions, from −∞: maximum is commutative and associative, so the reduce over the one axis at
    (b, 0) is the fold of `max` from `⊥` over the positions of the masked scores of row b. -/
theorem max_apply (b : Fin 32) :
    val_main_v14 (F := Ideal) x0 x1 x2 x3 x4 x5 (ix2 b 0)
      = (Finset.univ : Finset (Fin 4096)).fold max ⊥ (fun t' => Cert.Spec.mscore (ν x3) x0 x1 x2 x3 x4 x5 b t') := by
  unfold val_main_v14
  rw [Host.reduce_eq_fold_single FloatOps.maximumf _ _ reducesTo_S32x4096x1_S32x1_d1 (by decide) h_S_ (ix2 b 0)]
  have hx : (val_main_v13 (F := Ideal) x0 x1 x2 x3 x4 x5 ∘ Shape.Reduces.lift (s := S32x4096x1) (a := 1) (t := S32x1) (by decide) (ix2 b 0))
      = fun t' : Fin 4096 => Cert.Spec.mscore (ν x3) x0 x1 x2 x3 x4 x5 b t' := by
    refine funext fun (k : Fin 4096) => ?_
    refine Eq.trans ?_ (scores_apply x0 x1 x2 x3 x4 x5 b k)
    exact congrArg (val_main_v13 (F := Ideal) x0 x1 x2 x3 x4 x5)
      (funext fun a => Fin.ext (by match a with | ⟨0, _⟩ => rfl | ⟨1, _⟩ => rfl | ⟨2, _⟩ => rfl))
  rw [hx, val_main_cst_0_apply, ofBits_ninf]
  rfl

/-- The reference's row maximum, −∞ joined with the maximum over the positions, is the specification's. -/
theorem rowmax_apply (b : Fin 32) :
    val_main_v16 (F := Ideal) x0 x1 x2 x3 x4 x5 (ix2 b 0)
      = Cert.Spec.rowMax (fun t' => Cert.Spec.mscore (ν x3) x0 x1 x2 x3 x4 x5 b t') := by
  rw [val_main_v16_apply, max_apply, val_main_v15_apply, val_main_cst_1_apply, ofBits_ninf]
  rfl

/-- The reference's numerator at position t: exp (masked score − row maximum). -/
theorem exp_apply (b : Fin 32) (t : Fin 4096) :
    val_main_v20 (F := Ideal) x0 x1 x2 x3 x4 x5 (ix3 b t 0)
      = Ideal.exp (Cert.Spec.mscore (ν x3) x0 x1 x2 x3 x4 x5 b t
          - Cert.Spec.rowMax (fun t' => Cert.Spec.mscore (ν x3) x0 x1 x2 x3 x4 x5 b t')) := by
  rw [val_main_v20_apply, val_main_v19_apply, val_main_v18_apply, val_main_v17_apply, e_idx1718, rowmax_apply, scores_apply]
  rfl

/-- The reference's denominator of row b: 0 + the sum over the positions of those exponentials. -/
theorem den_apply (b : Fin 32) :
    val_main_v21 (F := Ideal) x0 x1 x2 x3 x4 x5 (ix2 b 0)
      = ∑ t : Fin 4096, Ideal.exp (Cert.Spec.mscore (ν x3) x0 x1 x2 x3 x4 x5 b t
          - Cert.Spec.rowMax (fun t' => Cert.Spec.mscore (ν x3) x0 x1 x2 x3 x4 x5 b t')) := by
  rw [val_main_v21_apply, val_main_cst_2_apply]
  simp only [e_idx21, exp_apply, Ideal.ofBits_def, Ideal.ofBits_zero_f32, zero_add]

/-- The reference's weights are the two-pass softmax of its masked scores along the positions. -/
theorem weights_apply (b : Fin 32) (t : Fin 4096) :
    val_main_v24 (F := Ideal) x0 x1 x2 x3 x4 x5 (ix3 b t 0)
      = Cert.Spec.smax (fun t' => Cert.Spec.mscore (ν x3) x0 x1 x2 x3 x4 x5 b t') t := by
  rw [val_main_v24_apply, val_main_v23_apply, val_main_v22_apply, e_idx2223, den_apply, exp_apply]
  rfl

/-- The sum over the positions at (b, c) reads the product at (b, k, c); the weight broadcast along the features is read
    at (b, k, 0). -/
theorem e_idx27 (b : Fin 32) (c : Fin 512) (k : Fin 4096) : idx_main_v27 (ix2 b c) k = ix3 b k c :=
  funext fun a => Fin.ext (by match a with | ⟨0, _⟩ => rfl | ⟨1, _⟩ => rfl | ⟨2, _⟩ => rfl)
theorem e_idx25 (b : Fin 32) (c : Fin 512) (k : Fin 4096) : idx_main_v25 (ix3 b k c) = ix3 b k 0 :=
  funext fun a => Fin.ext (by match a with | ⟨0, _⟩ => rfl | ⟨1, _⟩ => rfl | ⟨2, _⟩ => rfl)

/-- The reference's context at (row b, feature c): the sum over the positions of the feature times the weight. -/
theorem context_apply (b : Fin 32) (c : Fin 512) :
    val_main_v27 (F := Ideal) x0 x1 x2 x3 x4 x5 (ix2 b c)
      = ∑ t : Fin 4096, x1 (ix3 b t c) * Cert.Spec.smax (fun t' => Cert.Spec.mscore (ν x3) x0 x1 x2 x3 x4 x5 b t') t := by
  rw [val_main_v27_apply, val_main_cst_3_apply]
  simp only [e_idx27, val_main_v26_apply, val_main_v25_apply, e_idx25, weights_apply, Ideal.ofBits_def, Ideal.ofBits_zero_f32,
    zero_add, Ideal.mulf_def]

end Cert.ReferenceIdeal.RefValue

end
-- ==== Proof.SpecReal.lean ====
/-
  Under the precondition's facts the scores are real numbers: with every input real and the norm ν positive, the normalized
  weight scale · W / ν is real (the inverse of a nonzero extended real is real), tanh of a real is real, and a finite sum of
  products of reals is real. So a masked score is a real number or −∞, never +∞.
-/
import proofs.«144867_j29738353557990_1_alg».proof.Proof.Spec

noncomputable section

namespace Cert.Spec

open Idealize.ShloMosaic Idealize.ShloMosaic.ValueIdx

/-- The normalized weight is a real number: ν is positive, so not zero, and the quotient is the product with ν⁻¹; the
    inverse of a positive real is a real, and the inverse of +∞ is 0. -/
theorem wgt_real (ν : EReal) (hν : 0 < ν) (a3 : (⟨2, ![1, 512]⟩ : Shape).Idx → EReal) (a4 : (⟨2, ![1, 1]⟩ : Shape).Idx → EReal)
    (h3 : ∀ i, ∃ r : ℝ, a3 i = (r : EReal)) (h4 : ∀ i, ∃ r : ℝ, a4 i = (r : EReal)) (s : Fin 512) :
    ∃ r : ℝ, wgt ν a3 a4 s = (r : EReal) := by
  obtain ⟨r3, e3⟩ := h3 (ix2 0 s)
  obtain ⟨r4, e4⟩ := h4 (ix2 0 0)
  unfold wgt Ideal.div
  rw [if_neg hν.ne', e3, e4]
  induction ν using EReal.rec with
  | bot => exact absurd hν (by simp)
  | coe r => exact ⟨r4 * r3 * r⁻¹, by rw [EReal.coe_mul, EReal.coe_mul, EReal.coe_inv]⟩
  | top => exact ⟨0, by rw [EReal.inv_top, mul_zero]; rfl⟩

/-- The score is a real number. -/
theorem score_real (ν : EReal) (hν : 0 < ν) (a0 : (⟨2, ![32, 512]⟩ : Shape).Idx → EReal) (a1 : (⟨3, ![32, 4096, 512]⟩ : Shape).Idx → EReal)
    (a3 : (⟨2, ![1, 512]⟩ : Shape).Idx → EReal) (a4 : (⟨2, ![1, 1]⟩ : Shape).Idx → EReal) (a5 : (⟨1, ![512]⟩ : Shape).Idx → EReal)
    (h0 : ∀ i, ∃ r : ℝ, a0 i = (r : EReal)) (h1 : ∀ i, ∃ r : ℝ, a1 i = (r : EReal)) (h3 : ∀ i, ∃ r : ℝ, a3 i = (r : EReal))
    (h4 : ∀ i, ∃ r : ℝ, a4 i = (r : EReal)) (h5 : ∀ i, ∃ r : ℝ, a5 i = (r : EReal)) (b : Fin 32) (t : Fin 4096) :
    ∃ r : ℝ, score ν a0 a1 a3 a4 a5 b t = (r : EReal) := by
  -- Each term of the sum is tanh of a real times a real.
  have hterm : ∀ s : Fin 512, ∃ r : ℝ,
      Ideal.tanh (a0 (ix2 b s) + a5 (ix1 s) + a1 (ix3 b t s)) * wgt ν a3 a4 s = (r : EReal) := by
    intro s
    obtain ⟨r0, e0⟩ := h0 (ix2 b s)
    obtain ⟨r5, e5⟩ := h5 (ix1 s)
    obtain ⟨r1, e1⟩ := h1 (ix3 b t s)
    obtain ⟨w, ew⟩ := wgt_real ν hν a3 a4 h3 h4 s
    refine ⟨Real.tanh (r0 + r5 + r1) * w, ?_⟩
    rw [e0, e5, e1, ew, ← EReal.coe_add, ← EReal.coe_add, Ideal.tanh_coe, EReal.coe_mul]
  choose f hf using hterm
  -- A finite sum of reals is a real.
  refine ⟨∑ s : Fin 512, f s, ?_⟩
  unfold score
  rw [OnlineSoftmax.coe_sum]
  exact Finset.sum_congr rfl fun s _ => hf s

/-- A masked score is never +∞. -/
theorem mscore_ne_top (ν : EReal) (hν : 0 < ν) (a0 : (⟨2, ![32, 512]⟩ : Shape).Idx → EReal) (a1 : (⟨3, ![32, 4096, 512]⟩ : Shape).Idx → EReal)
    (a2 : (⟨3, ![32, 4096, 1]⟩ : Shape).Idx → BitVec 1)
    (a3 : (⟨2, ![1, 512]⟩ : Shape).Idx → EReal) (a4 : (⟨2, ![1, 1]⟩ : Shape).Idx → EReal) (a5 : (⟨1, ![512]⟩ : Shape).Idx → EReal)
    (h0 : ∀ i, ∃ r : ℝ, a0 i = (r : EReal)) (h1 : ∀ i, ∃ r : ℝ, a1 i = (r : EReal)) (h3 : ∀ i, ∃ r : ℝ, a3 i = (r : EReal))
    (h4 : ∀ i, ∃ r : ℝ, a4 i = (r : EReal)) (h5 : ∀ i, ∃ r : ℝ, a5 i = (r : EReal)) (b : Fin 32) (t : Fin 4096) :
    mscore ν a0 a1 a2 a3 a4 a5 b t ≠ ⊤ := by
  obtain ⟨r, hr⟩ := score_real ν hν a0 a1 a3 a4 a5 h0 h1 h3 h4 h5 b t
  unfold mscore Scalar.select
  split
  · rw [hr]; exact EReal.coe_ne_top r
  · exact bot_ne_top

/-- Where the mask holds, the masked score is not −∞. -/
theorem mscore_ne_bot (ν : EReal) (hν : 0 < ν) (a0 : (⟨2, ![32, 512]⟩ : Shape).Idx → EReal) (a1 : (⟨3, ![32, 4096, 512]⟩ : Shape).Idx → EReal)
    (a2 : (⟨3, ![32, 4096, 1]⟩ : Shape).Idx → BitVec 1)
    (a3 : (⟨2, ![1, 512]⟩ : Shape).Idx → EReal) (a4 : (⟨2, ![1, 1]⟩ : Shape).Idx → EReal) (a5 : (⟨1, ![512]⟩ : Shape).Idx → EReal)
    (h0 : ∀ i, ∃ r : ℝ, a0 i = (r : EReal)) (h1 : ∀ i, ∃ r : ℝ, a1 i = (r : EReal)) (h3 : ∀ i, ∃ r : ℝ, a3 i = (r : EReal))
    (h4 : ∀ i, ∃ r : ℝ, a4 i = (r : EReal)) (h5 : ∀ i, ∃ r : ℝ, a5 i = (r : EReal)) (b : Fin 32) (t : Fin 4096)
    (hm : a2 (ix3 b t 0) = 1#1) :
    mscore ν a0 a1 a2 a3 a4 a5 b t ≠ ⊥ := by
  obtain ⟨r, hr⟩ := score_real ν hν a0 a1 a3 a4 a5 h0 h1 h3 h4 h5 b t
  unfold mscore Scalar.select
  rw [if_pos (show a2 (ix3 b t 0) = 1 from hm), hr]
  exact EReal.coe_ne_bot r

end Cert.Spec

end
-- ==== Proof.Bridge.lean ====
/-
  The two programs meet. The region's masked score is the specification's (the query is input + bias, the weight row
  scale · W / norm, the mask word is nonzero exactly where the mask bit is set). Under the precondition every score is real or
  −∞, every row has a score that is not −∞, and the features are real, so the one-pass quotient over the 16 tiles is the
  two-pass softmax average over the 4096 positions — which is what the reference computes. The second result is the same
  softmax of the same scores array on both sides.
-/
import proofs.«144867_j29738353557990_1_alg».proof.Proof.KernelRun
import proofs.«144867_j29738353557990_1_alg».proof.Proof.RefValue
import proofs.«144867_j29738353557990_1_alg».proof.Proof.SpecReal
import Idealize.ShloMosaic.Lib.Affine

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Inv Cert.KernelIdeal.Final Cert.KernelIdeal.HostSide OnlineSoftmax

variable (m : (ℓ : Loc nD τ sig) → Buf (Elt Ideal) ℓ) (c : Dev nD)

/-- The norm both programs divide by. -/
def nu : EReal := Cert.PreFacts.nrm (A3 m c) (ix2 0 0)

/-! ## The host's broadcasts at an index -/

theorem bcast_row {α : Type} (x : S32x512.Idx → α) (b : Fin 32) (s : Fin 512) :
    broadcastInDim S32x1x512 ![0, 2] bcast_S32x512_S32x1x512_0_2 x (ix3 b 0 s) = x (ix2 b s) :=
  broadcastInDim_apply _ bcast_S32x512_S32x1x512_0_2 x (ix3 b 0 s) (ix2 b s) (fun a => match a with
    | ⟨0, _⟩ => by show b.val = if (32 : Nat) = 1 then 0 else b.val; rw [if_neg (by decide)]
    | ⟨1, _⟩ => by show s.val = if (512 : Nat) = 1 then 0 else s.val; rw [if_neg (by decide)])

theorem bcast_rows {α : Type} (x : S1x512.Idx → α) (b : Fin 32) (s : Fin 512) :
    broadcastInDim S32x512 ![0, 1] bcast_S1x512_S32x512_0_1 x (ix2 b s) = x (ix2 0 s) :=
  broadcastInDim_apply _ bcast_S1x512_S32x512_0_1 x (ix2 b s) (ix2 0 s) (fun a => match a with
    | ⟨0, _⟩ => by show (0 : Nat) = if (1 : Nat) = 1 then 0 else b.val; rw [if_pos rfl]
    | ⟨1, _⟩ => by show s.val = if (512 : Nat) = 1 then 0 else s.val; rw [if_neg (by decide)])

theorem bcast_vec {α : Type} (x : S512.Idx → α) (s : Fin 512) :
    broadcastInDim S1x512 ![1] bcast_S512_S1x512_1 x (ix2 0 s) = x (ix1 s) :=
  broadcastInDim_apply _ bcast_S512_S1x512_1 x (ix2 0 s) (ix1 s) (fun a => match a with
    | ⟨0, _⟩ => by show s.val = if (512 : Nat) = 1 then 0 else s.val; rw [if_neg (by decide)])

theorem bcast_one {α : Type} (x : S1x1.Idx → α) (s : Fin 512) :
    broadcastInDim S1x512 ![0, 1] bcast_S1x1_S1x512_0_1 x (ix2 0 s) = x (ix2 0 0) :=
  broadcastInDim_apply _ bcast_S1x1_S1x512_0_1 x (ix2 0 s) (ix2 0 0) (fun a => match a with
    | ⟨0, _⟩ => by show (0 : Nat) = if (1 : Nat) = 1 then 0 else 0; rw [if_pos rfl]
    | ⟨1, _⟩ => by show (0 : Nat) = if (1 : Nat) = 1 then 0 else s.val; rw [if_pos rfl])

/-! ## The region's arrays at an index -/

/-- The query at (b, 0, s): input + bias. -/
theorem query_apply (b : Fin 32) (s : Fin 512) : query m c (ix3 b 0 s) = A0 m c (ix2 b s) + A5 m c (ix1 s) := by
  rw [query_eq, bcast_row, addf_apply, bcast_rows, bcast_vec]

/-- The weight at (0, s): scale · W / norm. -/
theorem weight_apply (s : Fin 512) : weight m c (ix2 0 s) = Cert.Spec.wgt (nu m c) (A3 m c) (A4 m c) s := by
  rw [weight_eq]
  show Ideal.div (mulf (F := Ideal) (φ := .f32) (broadcastInDim S1x512 ![0, 1] bcast_S1x1_S1x512_0_1 (A4 m c)) (A3 m c) (ix2 0 s))
    (broadcastInDim S1x512 ![0, 1] bcast_S1x1_S1x512_0_1 (Cert.PreFacts.nrm (A3 m c)) (ix2 0 s)) = _
  rw [mulf_apply, bcast_one, bcast_one]
  rfl

/-- A widened mask bit is nonzero exactly when the bit is set. -/
theorem mask_bit (w : BitVec 1) : IntOp.cmpi .ne (w.setWidth 32) 0#32 = w := by revert w; decide

/-- The region's masked score is the specification's. -/
theorem rscore_eq (b : Fin 32) (p : Fin 4096) :
    rscore m c b p = Cert.Spec.mscore (nu m c) (A0 m c) (A1 m c) (A2 m c) (A3 m c) (A4 m c) (A5 m c) b p := by
  unfold rscore Cert.Spec.mscore Cert.Spec.score
  have hk : IntOp.cmpi .ne (maskw m c (ix3 b p 0)) 0#32 = A2 m c (ix3 b p 0) := by
    rw [maskw_eq]; exact mask_bit _
  rw [hk]
  refine congrArg (fun z => Scalar.select (A2 m c (ix3 b p 0)) z ⊥) (Finset.sum_congr rfl fun s _ => ?_)
  rw [query_apply, weight_apply, feats_eq]

/-! ## The results under the precondition -/

/-- The norm the reference divides by is the same term. -/
theorem nu_ref : Cert.ReferenceIdeal.RefValue.ν (A3 m c) = nu m c := rfl

/-- The kernel's result at (row b, feature cc): the two-pass softmax average of the features. -/
theorem result_apply (hpre : Cert.Pre_finite_inputs.fn (F := Ideal) (A0 m c) (A1 m c) (A2 m c) (A3 m c) (A4 m c) (A5 m c) = (fun _ => 1#1)) (b : Fin 32) (cc : Fin 512) :
    resultArr m c (ix3 b 0 cc)
      = ∑ p : Fin 4096, A1 m c (ix3 b p cc)
          * Cert.Spec.smax (fun p' => Cert.Spec.mscore (nu m c) (A0 m c) (A1 m c) (A2 m c) (A3 m c) (A4 m c) (A5 m c) b p') p := by
  obtain ⟨h0, h1, h3, h4, h5, hmask, hν⟩ := Cert.PreFacts.decode _ _ _ _ _ _ hpre
  obtain ⟨t0, ht0⟩ := hmask b
  have hs : sT m c b = Cert.Spec.tile (fun p => Cert.Spec.mscore (nu m c) (A0 m c) (A1 m c) (A2 m c) (A3 m c) (A4 m c) (A5 m c) b p) ⊥ := by
    unfold sT
    exact congrArg (fun g => Cert.Spec.tile g ⊥) (funext fun p => rscore_eq m c b p)
  have hf : fT m c b cc = Cert.Spec.tile (fun p => A1 m c (ix3 b p cc)) 0 := by
    unfold fT
    rw [feats_eq]
  show Ideal.div (runA (sT m c b) (fT m c b cc) 16) (runL (sT m c b) 16) = _
  rw [hs, hf]
  exact Cert.Spec.tiles_div_eq _ _
    (fun p => Cert.Spec.mscore_ne_top (nu m c) hν _ _ _ _ _ _ h0 h1 h3 h4 h5 b p)
    ⟨t0, Cert.Spec.mscore_ne_bot (nu m c) hν _ _ _ _ _ _ h0 h1 h3 h4 h5 b t0 ht0⟩
    (fun p => h1 _)

/-- The first results agree: the reference's context is the kernel's result array with its unit axis dropped. -/
theorem context_bridge (hpre : Cert.Pre_finite_inputs.fn (F := Ideal) (A0 m c) (A1 m c) (A2 m c) (A3 m c) (A4 m c) (A5 m c) = (fun _ => 1#1)) :
    Cert.ReferenceIdeal.Read.val_main_v27 (F := Ideal) (A0 m c) (A1 m c) (A2 m c) (A3 m c) (A4 m c) (A5 m c)
      = shapeCast S32x512 (resultArr m c) shapeCasts_S32x1x512_S32x512 := by
  funext i
  obtain ⟨b, cc, rfl⟩ : ∃ (b : Fin 32) (cc : Fin 512), i = ix2 b cc := ⟨i 0, i 1, eq_ix2 i⟩
  have e : shapeCast S32x512 (resultArr m c) shapeCasts_S32x1x512_S32x512 (ix2 b cc) = resultArr m c (ix3 b 0 cc) :=
    shapeCast_apply _ _ _ _ (by
      rw [Shape.rowMajor_val_three, Shape.rowMajor_val_two]
      show (b.val * 1 + 0) * 512 + cc.val = b.val * 512 + cc.val
      omega)
  rw [e, result_apply m c hpre b cc, Cert.ReferenceIdeal.RefValue.context_apply, nu_ref]

/-- The scores arrays agree: the reference's masked scores are the region's. -/
theorem scores_bridge : Cert.ReferenceIdeal.Read.val_main_v13 (F := Ideal) (A0 m c) (A1 m c) (A2 m c) (A3 m c) (A4 m c) (A5 m c) = scoresArr m c := by
  funext i
  obtain ⟨b, p, rfl⟩ : ∃ (b : Fin 32) (p : Fin 4096), i = ix3 b p 0 := ⟨i 0, i 1, funext fun a => by
    match a with
    | ⟨0, _⟩ => rfl
    | ⟨1, _⟩ => rfl
    | ⟨2, _⟩ => exact Fin.ext (by show (i 2).val = 0; have : (i 2).val < 1 := (i 2).isLt; omega)⟩
  rw [Cert.ReferenceIdeal.RefValue.scores_apply, nu_ref]
  show _ = rscore m c b p
  rw [rscore_eq]

/-- The reference's weights are the same softmax, of its scores array. -/
theorem tail_ref (x0 : (⟨Cert.ReferenceIdeal.S32x512, .f32⟩ : BufTy).Contents (Elt Ideal)) (x1 : (⟨Cert.ReferenceIdeal.S32x4096x512, .f32⟩ : BufTy).Contents (Elt Ideal))
    (x2 : (⟨Cert.ReferenceIdeal.S32x4096x1, .i1⟩ : BufTy).Contents (Elt Ideal)) (x3 : (⟨Cert.ReferenceIdeal.S1x512, .f32⟩ : BufTy).Contents (Elt Ideal))
    (x4 : (⟨Cert.ReferenceIdeal.S1x1, .f32⟩ : BufTy).Contents (Elt Ideal)) (x5 : (⟨Cert.ReferenceIdeal.S512, .f32⟩ : BufTy).Contents (Elt Ideal)) :
    Cert.ReferenceIdeal.Read.val_main_v24 (F := Ideal) x0 x1 x2 x3 x4 x5
      = tail (Cert.ReferenceIdeal.Read.val_main_v13 (F := Ideal) x0 x1 x2 x3 x4 x5) := rfl

/-- The second results agree. -/
theorem weights_bridge : Cert.ReferenceIdeal.Read.val_main_v24 (F := Ideal) (A0 m c) (A1 m c) (A2 m c) (A3 m c) (A4 m c) (A5 m c) = tail (scoresArr m c) := by
  rw [tail_ref, scores_bridge]

end Cert.Bridge

end
-- ==== Proof.lean ====
/-
  Additive attention pooling: for each of 32 batch rows, 4096 positions with 512 features each are scored by
  score(b, t) = ∑ₛ tanh (input(b, s) + bias(s) + feature(b, t, s)) · weight(s), weight = scale · W / ‖W‖, masked positions set to −∞;
  the second result is the softmax of the scores along the positions, the first the softmax-weighted sum of the features.

  The reference computes the softmax in two passes. The kernel reads the features once: it walks the positions in 16 tiles of 256,
  carrying a running maximum M, a denominator L = ∑ exp (score − M) and a numerator A = ∑ exp (score − M) · feature, both rescaled by
  exp (M_old − M_new) whenever the maximum grows, and writes A / L after the last tile; the weights it leaves to the host, as the
  same softmax of the scores array it wrote.

  At the extended reals the two agree under the precondition — every float input finite, every mask row with a true entry, the
  norm ‖W‖ positive: then every score is a real number or −∞ and each row has a real score, so the row's maximum is real, every
  exponential is a real number, and rescaling is multiplication of real numbers: after 16 tiles A / L is
  ∑ₜ feature(t) · exp (score(t) − M) / ∑ₜ exp (score(t) − M). (Without a true entry in a row, or with W = 0, the reference itself is
  0 / 0.) The kernel's finite stand-in for −∞ in the mask fill is read as −∞: the ledger's one entry.

  The modules: KernelPayloads (the body's arithmetic at an index), KernelPieces and KernelPoints (what one grid point leaves),
  KernelStep and OnlineSoftmax (one tile advances the one-pass softmax; the one-pass quotient is the two-pass average), KernelBlocks,
  KernelInvariant and KernelFinal (the carried values point by point; the two output arrays as whole-array functions), KernelHost and
  KernelRun (the host operations around the region; the run with its results named), Spec and SpecReal (the common quantities; they
  are real), PreFacts (the precondition read back), RefValue (the reference at an index), Bridge (the two sides meet).
-/
import proofs.«144867_j29738353557990_1_alg».proof.Defs
import proofs.«144867_j29738353557990_1_alg».proof.Proof.Gen.Kernel
import proofs.«144867_j29738353557990_1_alg».proof.Proof.Gen.Kernel.Skeleton
import proofs.«144867_j29738353557990_1_alg».proof.Proof.Gen.Kernel.Launch
import proofs.«144867_j29738353557990_1_alg».proof.Proof.Gen.Kernel.Points
import proofs.«144867_j29738353557990_1_alg».proof.Proof.Gen.Kernel.Frame
import proofs.«144867_j29738353557990_1_alg».proof.Proof.Gen.KernelIdeal
import proofs.«144867_j29738353557990_1_alg».proof.Proof.Gen.KernelIdeal.Skeleton
import proofs.«144867_j29738353557990_1_alg».proof.Proof.Gen.KernelIdeal.Launch
import proofs.«144867_j29738353557990_1_alg».proof.Proof.Gen.KernelIdeal.Points
import proofs.«144867_j29738353557990_1_alg».proof.Proof.Gen.KernelIdeal.Frame
import proofs.«144867_j29738353557990_1_alg».proof.Proof.Gen.ReferenceIdeal
import proofs.«144867_j29738353557990_1_alg».proof.Proof.Gen.Pre_finite_inputs
import proofs.«144867_j29738353557990_1_alg».proof.Proof.Gen.ReferenceIdeal.Run
import proofs.«144867_j29738353557990_1_alg».proof.Proof.Gen.ReferenceIdeal.Read
import proofs.«144867_j29738353557990_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger's one entry: the kernel's finite mask fill is named −∞, and the printed constant is that value. -/
theorem preserves : Cert.preserves_Kernel_KernelIdeal :=
  IdealRules.named_const.statement Cert.KernelIdeal.κ "neg_big" .f32 0xFF333332#32 ⊥ rfl

/-- From memories agreeing on the arguments both programs end with equal results: the context is the two-pass softmax average of
    the features on both sides, the weights the same softmax of the same scores array. -/
theorem algebraic : Cert.algebraic_KernelIdeal_ReferenceIdeal := by
  intro m ρ m' ρ' hpre hagree
  refine ⟨fun c => shapeCast Cert.KernelIdeal.S32x512 (Cert.KernelIdeal.Final.resultArr m c) Cert.KernelIdeal.Facts₀.shapeCasts_S32x1x512_S32x512,
    fun c => Cert.KernelIdeal.HostSide.tail (Cert.KernelIdeal.Final.scoresArr m c),
    Cert.KernelIdeal.RunValue.run m ρ, ?_⟩
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v27_eq, (hagree c).1, (hagree c).2.1, (hagree c).2.2.1, (hagree c).2.2.2.1,
      (hagree c).2.2.2.2.1, (hagree c).2.2.2.2.2]
    exact Cert.Bridge.context_bridge m c (hpre c)
  · rw [(h c).2.1, Cert.ReferenceIdeal.Read.val_main_v24_eq, (hagree c).1, (hagree c).2.1, (hagree c).2.2.1, (hagree c).2.2.2.1,
      (hagree c).2.2.2.2.1, (hagree c).2.2.2.2.2]
    exact Cert.Bridge.weights_bridge m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
